-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S4x64x64 : Shape := ⟨3, ![4, 64, 64]⟩
abbrev S4x64 : Shape := ⟨2, ![4, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x16 .f32) (main_arg9 : FVec F S16 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg8
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : IVec S2x1000000 32) (main_arg2 : IVec S100000 32) (main_arg3 : FVec F S4x64x64 .f32) (main_arg4 : FVec F S4x64 .f32) (main_arg5 : FVec F S4x64x64 .f32) (main_arg6 : FVec F S64x64 .f32) (main_arg7 : FVec F S64 .f32) (main_arg8 : FVec F S64x16 .f32) (main_arg9 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x64 .f32 := Host.absf main_arg3
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64x64 .f32 := Host.absf main_arg5
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg6 main_arg7 main_arg8 main_arg9 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S4x64x64 : Shape := ⟨3, ![4, 64, 64]⟩
abbrev S4x64 : Shape := ⟨2, ![4, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S1x64x64 : Shape := ⟨3, ![1, 64, 64]⟩
abbrev S5000x64 : Shape := ⟨2, ![5000, 64]⟩
abbrev S1024x64 : Shape := ⟨2, ![1024, 64]⟩
abbrev S100000x1 : Shape := ⟨2, ![100000, 1]⟩
abbrev S1x16 : Shape := ⟨2, ![1, 16]⟩
abbrev S1024x16 : Shape := ⟨2, ![1024, 16]⟩

abbrev nBuf : Space → Nat
  | .hbm => 105
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S4x64x64, .f32⟩
  | .hbm, ⟨4, _⟩ => ⟨S4x64, .f32⟩
  | .hbm, ⟨5, _⟩ => ⟨S4x64x64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .f32⟩
  | .hbm, ⟨24, _⟩ => ⟨S100000x64, .f32⟩
  | .hbm, ⟨25, _⟩ => ⟨S1000000x1, .i32⟩
  | .hbm, ⟨26, _⟩ => ⟨S100000x64, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S1x64x64, .f32⟩
  | .hbm, ⟨31, _⟩ => ⟨S64x64, .f32⟩
  | .hbm, ⟨32, _⟩ => ⟨S1x64x64, .f32⟩
  | .hbm, ⟨33, _⟩ => ⟨S64x64, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S1x64, .f32⟩
  | .hbm, ⟨49, _⟩ => ⟨S64, .f32⟩
  | .hbm, ⟨50, _⟩ => ⟨S1x64, .f32⟩
  | .hbm, ⟨51, _⟩ => ⟨S1x64x64, .f32⟩
  | .hbm, ⟨52, _⟩ => ⟨S64x64, .f32⟩
  | .hbm, ⟨53, _⟩ => ⟨S1x64x64, .f32⟩
  | .hbm, ⟨54, _⟩ => ⟨S64x64, .f32⟩
  | .hbm, ⟨55, _⟩ => ⟨S100000x64, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x64, .f32⟩
  | .hbm, ⟨65, _⟩ => ⟨S_, .f32⟩
  | .hbm, ⟨66, _⟩ => ⟨S100000x64, .f32⟩
  | .hbm, ⟨67, _⟩ => ⟨S1000000x1, .i32⟩
  | .hbm, ⟨68, _⟩ => ⟨S100000x64, .f32⟩
  | .hbm, ⟨69, _⟩ => ⟨S1x64, .f32⟩
  | .hbm, ⟨70, _⟩ => ⟨S64, .f32⟩
  | .hbm, ⟨71, _⟩ => ⟨S1x64, .f32⟩
  | .hbm, ⟨72, _⟩ => ⟨S1x64x64, .f32⟩
  | .hbm, ⟨73, _⟩ => ⟨S64x64, .f32⟩
  | .hbm, ⟨74, _⟩ => ⟨S1x64x64, .f32⟩
  | .hbm, ⟨75, _⟩ => ⟨S64x64, .f32⟩
  | .hbm, ⟨76, _⟩ => ⟨S100000x64, .f32⟩
  | .hbm, ⟨77, _⟩ => ⟨S_, .i32⟩
  | .hbm, ⟨78, _⟩ => ⟨S1000000, .i32⟩
  | .hbm, ⟨79, _⟩ => ⟨S1000000, .i1⟩
  | .hbm, ⟨80, _⟩ => ⟨S_, .i32⟩
  | .hbm, ⟨81, _⟩ => ⟨S1000000, .i32⟩
  | .hbm, ⟨82, _⟩ => ⟨S1000000, .i32⟩
  | .hbm, ⟨83, _⟩ => ⟨S1000000, .i32⟩
  | .hbm, ⟨84, _⟩ => ⟨S1000000x1, .i32⟩
  | .hbm, ⟨85, _⟩ => ⟨S1000000x64, .f32⟩
  | .hbm, ⟨86, _⟩ => ⟨S_, .f32⟩
  | .hbm, ⟨87, _⟩ => ⟨S100000x64, .f32⟩
  | .hbm, ⟨88, _⟩ => ⟨S1000000x1, .i32⟩
  | .hbm, ⟨89, _⟩ => ⟨S100000x64, .f32⟩
  | .hbm, ⟨90, _⟩ => ⟨S1x64, .f32⟩
  | .hbm, ⟨91, _⟩ => ⟨S64, .f32⟩
  | .hbm, ⟨92, _⟩ => ⟨S1x64, .f32⟩
  | .hbm, ⟨93, _⟩ => ⟨S1x64x64, .f32⟩
  | .hbm, ⟨94, _⟩ => ⟨S64x64, .f32⟩
  | .hbm, ⟨95, _⟩ => ⟨S1x64x64, .f32⟩
  | .hbm, ⟨96, _⟩ => ⟨S64x64, .f32⟩
  | .hbm, ⟨97, _⟩ => ⟨S100000x64, .f32⟩
  | .hbm, ⟨98, _⟩ => ⟨S_, .f32⟩
  | .hbm, ⟨99, _⟩ => ⟨S1024x64, .f32⟩
  | .hbm, ⟨100, _⟩ => ⟨S100000x1, .i32⟩
  | .hbm, ⟨101, _⟩ => ⟨S1024x64, .f32⟩
  | .hbm, ⟨102, _⟩ => ⟨S1x64, .f32⟩
  | .hbm, ⟨103, _⟩ => ⟨S1x16, .f32⟩
  | .hbm, ⟨104, _⟩ => ⟨S1024x16, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S5000x64, .f32⟩
  | .local _ .vmem, ⟨35, _⟩ => ⟨S5000x64, .f32⟩
  | .local _ .vmem, ⟨36, _⟩ => ⟨S1024x64, .f32⟩
  | .local _ .vmem, ⟨37, _⟩ => ⟨S64x64, .f32⟩
  | .local _ .vmem, ⟨38, _⟩ => ⟨S1x64, .f32⟩
  | .local _ .vmem, ⟨39, _⟩ => ⟨S64x16, .f32⟩
  | .local _ .vmem, ⟨40, _⟩ => ⟨S1x16, .f32⟩
  | .local _ .vmem, ⟨41, _⟩ => ⟨S1024x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_4 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_7 : Ref sig .tc := ⟨.hbm, 77, rfl⟩
abbrev main_v58 : Ref sig .tc := ⟨.hbm, 78, rfl⟩
abbrev main_v59 : Ref sig .tc := ⟨.hbm, 79, rfl⟩
abbrev main_c_8 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  shapeCasts_S64_S1x64 : S64.ShapeCasts S1x64
  slices_S4x64x64_S1x64x64_0_0_0 : S4x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S4x64_S1x64_1_0 : S4x64.Slices ![1, 0] S1x64
  slices_S4x64x64_S1x64x64_1_0_0 : S4x64x64.Slices ![1, 0, 0] S1x64x64
  slices_S4x64_S1x64_2_0 : S4x64.Slices ![2, 0] S1x64
  slices_S4x64x64_S1x64x64_2_0_0 : S4x64x64.Slices ![2, 0, 0] S1x64x64
  slices_S4x64_S1x64_3_0 : S4x64.Slices ![3, 0] S1x64
  slices_S4x64x64_S1x64x64_3_0_0 : S4x64x64.Slices ![3, 0, 0] S1x64x64
  bcast_S_S1024x64 : S_.BroadcastsInDim S1024x64 (![] : Fin 0 → Fin S1024x64.rank)
  bcast_S100000_S100000x1_0 : S100000.BroadcastsInDim S100000x1 (![0] : Fin 1 → Fin S100000x1.rank)
  shapeCasts_S16_S1x16 : S16.ShapeCasts S1x16
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S1024x16_S1024x16_0_0 : ∀ a, (![0, 0] : Fin 2 → Nat) a + S1024x16.size a ≤ S1024x16.size a
  h_S1024x16 : 0 < S1024x16.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  scatter_S1024x64_S100000x1_S100000x64_1_0_0_1_wf : ScatterDims.WF S1024x64 S100000x1 S100000x64 [1] [0] [0] 1
  dot_S1024x64_S64x64_S1024x64_1_0_0_1_n_n_wf : DotDims.WF S1024x64 S64x64 S1024x64 [1] [0] [0] [1] [] []
  dot_S1024x64_S64x16_S1024x16_1_0_0_1_n_n_wf : DotDims.WF S1024x64 S64x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S1024x64.size a
  hwx4_0 : ∀ i : grid4.Coords, EltTy.bits .f32 = 32 ∨ (Rect.block (s := S1024x64) S1024x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x16.size a ≤ S64x16.size a
  hwx4_3 : ∀ i : grid4.Coords, EltTy.bits .f32 = 32 ∨ (Rect.block (s := S64x16) S64x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x16.size a ≤ S1024x16.size a
  hwx4_5 : ∀ i : grid4.Coords, EltTy.bits .f32 = 32 ∨ (Rect.block (s := S1024x16) S1024x16.size (cc4_transform_5 i) (hinb4_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v78) S1024x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S64x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v80) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S1024x16.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S4x64x64 : Shape := ⟨3, ![4, 64, 64]⟩
abbrev S4x64 : Shape := ⟨2, ![4, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S1x64 : Shape := ⟨2, ![1, 64]⟩
abbrev S1024x64 : Shape := ⟨2, ![1024, 64]⟩
abbrev S100000x1 : Shape := ⟨2, ![100000, 1]⟩
abbrev S1024x16 : Shape := ⟨2, ![1024, 16]⟩
abbrev S1x16 : Shape := ⟨2, ![1, 16]⟩

abbrev nBuf : Space → Nat
  | .hbm => 141
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S4x64x64, .f32⟩
  | 4 => ⟨S4x64, .f32⟩
  | 5 => ⟨S4x64x64, .f32⟩
  | 6 => ⟨S64x64, .f32⟩
  | 7 => ⟨S64, .f32⟩
  | 8 => ⟨S64x16, .f32⟩
  | 9 => ⟨S16, .f32⟩
  | 10 => ⟨S1x1000000, .i32⟩
  | 11 => ⟨S1000000, .i32⟩
  | 12 => ⟨S1x1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S_, .f32⟩
  | 24 => ⟨S100000x64, .f32⟩
  | 25 => ⟨S1000000x1, .i32⟩
  | 26 => ⟨S100000x64, .f32⟩
  | 27 => ⟨S1x64x64, .f32⟩
  | 28 => ⟨S64x64, .f32⟩
  | 29 => ⟨S100000x64, .f32⟩
  | 30 => ⟨S1x64, .f32⟩
  | 31 => ⟨S64, .f32⟩
  | 32 => ⟨S1x64, .f32⟩
  | 33 => ⟨S100000x64, .f32⟩
  | 34 => ⟨S100000x64, .f32⟩
  | 35 => ⟨S1x64x64, .f32⟩
  | 36 => ⟨S64x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x64, .f32⟩
  | 51 => ⟨S_, .f32⟩
  | 52 => ⟨S100000x64, .f32⟩
  | 53 => ⟨S1000000x1, .i32⟩
  | 54 => ⟨S100000x64, .f32⟩
  | 55 => ⟨S1x64x64, .f32⟩
  | 56 => ⟨S64x64, .f32⟩
  | 57 => ⟨S100000x64, .f32⟩
  | 58 => ⟨S1x64, .f32⟩
  | 59 => ⟨S64, .f32⟩
  | 60 => ⟨S1x64, .f32⟩
  | 61 => ⟨S100000x64, .f32⟩
  | 62 => ⟨S100000x64, .f32⟩
  | 63 => ⟨S1x64x64, .f32⟩
  | 64 => ⟨S64x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x64, .f32⟩
  | 79 => ⟨S_, .f32⟩
  | 80 => ⟨S100000x64, .f32⟩
  | 81 => ⟨S1000000x1, .i32⟩
  | 82 => ⟨S100000x64, .f32⟩
  | 83 => ⟨S1x64x64, .f32⟩
  | 84 => ⟨S64x64, .f32⟩
  | 85 => ⟨S100000x64, .f32⟩
  | 86 => ⟨S1x64, .f32⟩
  | 87 => ⟨S64, .f32⟩
  | 88 => ⟨S1x64, .f32⟩
  | 89 => ⟨S100000x64, .f32⟩
  | 90 => ⟨S100000x64, .f32⟩
  | 91 => ⟨S1x64x64, .f32⟩
  | 92 => ⟨S64x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S_, .f32⟩
  | 108 => ⟨S100000x64, .f32⟩
  | 109 => ⟨S1000000x1, .i32⟩
  | 110 => ⟨S100000x64, .f32⟩
  | 111 => ⟨S1x64x64, .f32⟩
  | 112 => ⟨S64x64, .f32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S1x64x64, .f32⟩
  | 120 => ⟨S64x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S1024x64, .f32⟩
  | _ => ⟨S100000x64, .f32⟩

abbrev hbmTy0_1 (i : Nat) : BufTy := match i % 128 with
  | 0 => ⟨S100000x1, .i32⟩
  | 1 => ⟨S1024x64, .f32⟩
  | 2 => ⟨S1024x64, .f32⟩
  | 3 => ⟨S1x64, .f32⟩
  | 4 => ⟨S1024x64, .f32⟩
  | 5 => ⟨S1024x64, .f32⟩
  | 6 => ⟨S_, .f32⟩
  | 7 => ⟨S1024x64, .f32⟩
  | 8 => ⟨S1024x64, .f32⟩
  | 9 => ⟨S1024x16, .f32⟩
  | 10 => ⟨S1x16, .f32⟩
  | 11 => ⟨S1024x16, .f32⟩
  | 12 => ⟨S1024x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_c_1 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_c_4 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call2_cst : Ref sig .tc := ⟨.hbm, 95, rfl⟩
abbrev main_call2_v0 : Ref sig .tc := ⟨.hbm, 96, rfl⟩
abbrev main_v72 : Ref sig .tc := ⟨.hbm, 97, rfl⟩
abbrev main_c_7 : Ref sig .tc := ⟨.hbm, 98, rfl⟩
abbrev main_v73 : Ref sig .tc := ⟨.hbm, 99, rfl⟩
abbrev main_v74 : Ref sig .tc := ⟨.hbm, 100, rfl⟩
abbrev main_c_8 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_9 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_call3_cst : Ref sig .tc := ⟨.hbm, 123, rfl⟩
abbrev main_call3_v0 : Ref sig .tc := ⟨.hbm, 124, rfl⟩
abbrev main_v95 : Ref sig .tc := ⟨.hbm, 125, rfl⟩
abbrev main_cst_10 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_call4_cst : Ref sig .tc := ⟨.hbm, 134, rfl⟩
abbrev main_call4_v0 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S1x64_S1024x64_0_1 : S1x64.BroadcastsInDim S1024x64 (![0, 1] : Fin 2 → Fin S1024x64.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  dot_S1024x64_S64x64_S1024x64_1_0_0_1_n_n_wf : DotDims.WF S1024x64 S64x64 S1024x64 [1] [0] [0] [1] [] []
  dot_S1024x64_S64x16_S1024x16_1_0_0_1_n_n_wf : DotDims.WF S1024x64 S64x16 S1024x16 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf

class Facts : Prop extends Facts₀ where

variable [Facts]
-- ==== Proof.KernelRun.lean ====
/-
  The kernel program's run with its result named: every weakly fair execution of the program terminates, nothing
  faulting, with the result buffer holding what the last boundary's contents give it and the argument arrays as
  launched. The run is the chain of the program's ten segments (five stretches of host operations, five kernel
  regions), each entered from the previous one's exit contents; the last thread state holds every unscoped buffer at
  the last boundary's contents, and the result buffer is one of them.
-/
import proofs.«162606_j46273977647663_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run : θ_run defs (onTc (τ := τ) (main (F := F))) ⟨m, fun _ => 0, ρ⟩ (fun r => ∀ c : Dev nD,
      r.2.mem ((c.tc : Thread nD τ).loc main_v81) = W10 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v81 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Named

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«162606_j46273977647663_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«162606_j46273977647663_1_alg».proof.Proof.LibMatmulPlain
import proofs.«162606_j46273977647663_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibSageLayer.lean ====
/-
  One graph-convolution layer with mean aggregation, on the extended reals, for any extents.

  For a matrix a [n, k] of aggregated neighbour features, the nodes' own features x [n, k], two weights wl, wr [k, h]
  and a bias b [h], the layer's result has entry (p, q)

      max ( Σ_j a(p, j) · wl(j, q)  +  Σ_j x(p, j) · wr(j, q)  +  b(q) ,  0 ).

  Row p of the result depends on row p of a and of x only, so a block of consecutive rows of the result is the layer
  of the same rows of a and x (layer_rows). The matrix unit's spelling (both operands of each product cast to a
  narrower float format first, the identity on the extended reals; the products taken into zero accumulators; the
  bias laid out as one row and repeated down the rows; the maximum with a repeated zero) and the host's spelling
  (two general products, the bias broadcast in two steps, the maximum with a broadcast zero constant) both denote
  it. No law of arithmetic is used beyond the definitions: the two spellings add their three terms in the same
  order.
-/
import proofs.«162606_j46273977647663_1_alg».proof.Proof.LibDenseLayers

noncomputable section

namespace Cert.Sage

open Idealize.ShloMosaic Idealize.ShloMosaic.ValueIdx Cert.LibMatmulPlain Cert.Layers

variable {n k h : Nat}

/-- a · wl + x · wr + b, rectified. -/
def layer (a x : Mat n k) (wl wr : Mat k h) (b : Row h) : Mat n h :=
  rect fun i => (mm a wl i + mm x wr i) + bias n b i

/-- The layer read at entry (p, q). -/
theorem layer_apply (a x : Mat n k) (wl wr : Mat k h) (b : Row h) (p : Fin n) (q : Fin h) :
    layer a x wl wr b (ix2 p q)
      = max ((∑ j : Fin k, a (ix2 p j) * wl (ix2 j q) + ∑ j : Fin k, x (ix2 p j) * wr (ix2 j q)) + b (ix1 q))
          (Ideal.ofBits .f32 0x00000000#32) := rfl

/-- Row p' of the layer of two matrices whose rows p' are rows p of a and of x is row p of the layer of a and x. -/
theorem layer_rows {n' : Nat} (a x : Mat n k) (a' x' : Mat n' k) (wl wr : Mat k h) (b : Row h)
    (p' : Fin n') (p : Fin n) (ha : ∀ j, a' (ix2 p' j) = a (ix2 p j)) (hx : ∀ j, x' (ix2 p' j) = x (ix2 p j))
    (q : Fin h) :
    layer a' x' wl wr b (ix2 p' q) = layer a x wl wr b (ix2 p q) := by
  rw [layer_apply, layer_apply]
  simp only [ha, hx]

/-- The matrix unit's spelling of the layer. -/
theorem tileLayer_eq {ψ : FTy} (d : DotDims ⟨2, ![n, k]⟩ ⟨2, ![k, h]⟩ ⟨2, ![n, h]⟩)
    (wf : DotDims.WF ⟨2, ![n, k]⟩ ⟨2, ![k, h]⟩ ⟨2, ![n, h]⟩ [1] [0] [0] [1] [] []) (hd : d = plainDims n k h wf)
    (a x : FVec Ideal ⟨2, ![n, k]⟩ .f32) (wl wr : FVec Ideal ⟨2, ![k, h]⟩ .f32) (b : FVec Ideal ⟨1, ![h]⟩ .f32)
    (hψ : ψ.bits < FTy.f32.bits) (hc : (⟨1, ![h]⟩ : Shape).ShapeCasts ⟨2, ![1, h]⟩)
    (hb : (⟨2, ![1, h]⟩ : Shape).Broadcasts ⟨2, ![n, h]⟩) :
    maximumf
        (addf
          (addf (matmul d none (truncf ψ a hψ) (truncf ψ wl hψ) (constant ⟨2, ![n, h]⟩ .f32 0x00000000#32))
            (matmul d none (truncf ψ x hψ) (truncf ψ wr hψ) (constant ⟨2, ![n, h]⟩ .f32 0x00000000#32)))
          (broadcastTo ⟨2, ![n, h]⟩ (shapeCast ⟨2, ![1, h]⟩ b hc) hb))
        (broadcast ⟨2, ![n, h]⟩ (Scalar.ofBits (F := Ideal) .f32 0x00000000#32))
      = layer a x wl wr b := by
  rw [tileRect_eq, tileBias_eq b hc hb, tileMm_eq d wf hd (truncf ψ a hψ) wl hψ, tileMm_eq d wf hd (truncf ψ x hψ) wr hψ]
  rfl

/-- The host's spelling of the layer. -/
theorem hostLayer_eq (d : DotDims ⟨2, ![n, k]⟩ ⟨2, ![k, h]⟩ ⟨2, ![n, h]⟩)
    (wf : DotDims.WF ⟨2, ![n, k]⟩ ⟨2, ![k, h]⟩ ⟨2, ![n, h]⟩ [1] [0] [0] [1] [] []) (hd : d = plainDims n k h wf)
    (a x : FVec Ideal ⟨2, ![n, k]⟩ .f32) (wl wr : FVec Ideal ⟨2, ![k, h]⟩ .f32) (b : FVec Ideal ⟨1, ![h]⟩ .f32)
    (h1 : (⟨1, ![h]⟩ : Shape).BroadcastsInDim ⟨2, ![1, h]⟩ ![1])
    (h2 : (⟨2, ![1, h]⟩ : Shape).BroadcastsInDim ⟨2, ![n, h]⟩ ![0, 1])
    (h0 : (⟨0, ![]⟩ : Shape).BroadcastsInDim ⟨2, ![n, h]⟩ ![]) :
    maximumf
        (addf (addf (Host.dotGeneral d none a wl) (Host.dotGeneral d none x wr))
          (broadcastInDim ⟨2, ![n, h]⟩ ![0, 1] h2 (broadcastInDim ⟨2, ![1, h]⟩ ![1] h1 b)))
        (broadcastInDim ⟨2, ![n, h]⟩ ![] h0 (constant (F := Ideal) ⟨0, ![]⟩ .f32 0x00000000#32))
      = layer a x wl wr b := by
  rw [hostRect_eq _ h0, hostBias_eq b h1 h2, hostMm_eq d wf hd a wl, hostMm_eq d wf hd x wr]
  rfl

end Cert.Sage

end
-- ==== Proof.Net.lean ====
/-
  A four-layer graph convolution network with sum pooling and a two-layer classifier, on the extended reals.

  Nodes carry 64 features. One layer sends the feature matrix h [100000, 64] to

      max ( agg(h) · Wrel_l  +  h · Wroot_l  +  brel_l ,  0 )

  where agg(h) sums, for every node, the feature rows of the sources of the edges that end at it (a row gather along the
  edge list followed by an add-scatter into zeros), and Wrel_l, Wroot_l, brel_l are the l-th slabs of the stacked
  weights. After four layers the node rows are summed per graph (an add-scatter along the graph index), and the
  pooled matrix g [1024, 64] goes through  max(g · W1 + b1, 0) · W2 + b2.

  The gather, the two scatters and the slab cuts are carried as they are spelt (nothing here reads them at an index):
  the dense part of a layer and the classifier are index formulas. Both programs are shown to compute net.
-/
import Idealize.ShloMosaic.PureOps.Ideal
import Idealize.ShloMosaic.Lib.ValueLayout
import proofs.«162606_j46273977647663_1_alg».proof.Proof.LibSageLayer

noncomputable section

namespace Cert.Net

open Idealize.ShloMosaic Idealize.ShloMosaic.ValueIdx Cert.Layers

/-! ## Shapes -/

abbrev SNode : Shape := ⟨2, ![100000, 64]⟩
abbrev SEdges : Shape := ⟨2, ![2, 1000000]⟩
abbrev SEdgeRow : Shape := ⟨2, ![1, 1000000]⟩
abbrev SEdge : Shape := ⟨1, ![1000000]⟩
abbrev SEdgeCol : Shape := ⟨2, ![1000000, 1]⟩
abbrev SEdgeFeat : Shape := ⟨2, ![1000000, 64]⟩
abbrev SScalar : Shape := ⟨0, ![]⟩
abbrev SBatch : Shape := ⟨1, ![100000]⟩
abbrev SBatchCol : Shape := ⟨2, ![100000, 1]⟩
abbrev SGraph : Shape := ⟨2, ![1024, 64]⟩
abbrev SStack : Shape := ⟨3, ![4, 64, 64]⟩
abbrev SSlab : Shape := ⟨3, ![1, 64, 64]⟩
abbrev SW : Shape := ⟨2, ![64, 64]⟩
abbrev SBiasStack : Shape := ⟨2, ![4, 64]⟩
abbrev SBiasRow : Shape := ⟨2, ![1, 64]⟩
abbrev SBias : Shape := ⟨1, ![64]⟩

/-! ## The sparse parts, as spelt -/

/-- The sources of the edges: row 0 of the edge list. -/
def srcRow (ei : IVec SEdges 32) : IVec SEdge 32 :=
  shapeCast SEdge (extractStridedSlice SEdgeRow ![0, 0] ei (by decide)) (by decide)

/-- The targets of the edges: row 1 of the edge list. -/
def dstRow (ei : IVec SEdges 32) : IVec SEdge 32 :=
  shapeCast SEdge (extractStridedSlice SEdgeRow ![1, 0] ei (by decide)) (by decide)

/-- A negative node index counts from the end: add the node count to it. -/
def wrap (v : IVec SEdge 32) : IVec SEdge 32 :=
  select (cmpi .slt v (broadcastInDim SEdge ![] (by decide) (constantI SScalar 32 0#32)))
    (addi v (broadcastInDim SEdge ![] (by decide) (constantI SScalar 32 100000#32))) v

/-- The row gather's dimension numbers. -/
def gatherRows : GatherDims SNode SEdgeCol SEdgeFeat where
  offsetDims := [1]
  collapsedSliceDims := [0]
  operandBatchingDims := []
  startIndicesBatchingDims := []
  startIndexMap := [0]
  indexVectorDim := 1
  sliceSizes := ![1, 64]
  wf := by decide

/-- The row scatter's dimension numbers, edges into nodes. -/
def scatterRows : ScatterDims SNode SEdgeCol SEdgeFeat where
  updateWindowDims := [1]
  insertedWindowDims := [0]
  scatterDimsToOperandDims := [0]
  indexVectorDim := 1
  wf := by decide

/-- The row scatter's dimension numbers, nodes into graphs. -/
def scatterGraphs : ScatterDims SGraph SBatchCol SNode where
  updateWindowDims := [1]
  insertedWindowDims := [0]
  scatterDimsToOperandDims := [0]
  indexVectorDim := 1
  wf := by decide

/-- For every node, the sum of the feature rows of the sources of the edges ending at it. -/
def agg (h : FVec Ideal SNode .f32) (ei : IVec SEdges 32) : FVec Ideal SNode .f32 :=
  Host.scatterAdd scatterRows (broadcastInDim SNode ![] (by decide) (constant (F := Ideal) SScalar .f32 0x00000000#32))
    (broadcastInDim SEdgeCol ![0] (by decide) (dstRow ei))
    (Host.gather gatherRows h (broadcastInDim SEdgeCol ![0] (by decide) (wrap (srcRow ei))))

/-- For every graph, the sum of the feature rows of its nodes. -/
def pool (h : FVec Ideal SNode .f32) (batch : IVec SBatch 32) : FVec Ideal SGraph .f32 :=
  Host.scatterAdd scatterGraphs (broadcastInDim SGraph ![] (by decide) (constant (F := Ideal) SScalar .f32 0x00000000#32))
    (broadcastInDim SBatchCol ![0] (by decide) batch) h

/-- Slab l of a stack of four weight matrices. -/
def slab (l : Nat) (hl : SStack.Slices ![l, 0, 0] SSlab) (w : FVec Ideal SStack .f32) : FVec Ideal SW .f32 :=
  shapeCast SW (extractStridedSlice SSlab ![l, 0, 0] w hl) (by decide)

/-- Row l of a stack of four bias vectors. -/
def biasOf (l : Nat) (hl : SBiasStack.Slices ![l, 0] SBiasRow) (b : FVec Ideal SBiasStack .f32) : FVec Ideal SBias .f32 :=
  shapeCast SBias (extractStridedSlice SBiasRow ![l, 0] b hl) (by decide)

/-! ## The dense parts, as index formulas -/

/-- A bias that arrives as a one-row block, repeated down m rows. -/
def biasBlk (m : Nat) {n : Nat} (b : Mat 1 n) : Mat m n := fun i => b (ix2 (0 : Fin 1) (i 1))

/-- One layer's dense part with the bias a one-row block: max(a · wl + x · wr + b, 0). -/
def layerBlk {n k h : Nat} (a x : Mat n k) (wl wr : Mat k h) (b : Mat 1 h) : Mat n h :=
  rect fun i => (mm a wl i + mm x wr i) + biasBlk n b i

/-- The classifier with both biases one-row blocks: max(g · w1 + b1, 0) · w2 + b2. -/
def headBlk {g k h o : Nat} (x : Mat g k) (w1 : Mat k h) (b1 : Mat 1 h) (w2 : Mat h o) (b2 : Mat 1 o) : Mat g o :=
  fun i => mm (rect fun j => mm x w1 j + biasBlk g b1 j) w2 i + biasBlk g b2 i

/-- A vector laid out as a one-row block and repeated down the rows is the vector repeated down the rows. -/
theorem biasBlk_cast {n : Nat} (m : Nat) (b : FVec Ideal ⟨1, ![n]⟩ .f32) (hc : (⟨1, ![n]⟩ : Shape).ShapeCasts ⟨2, ![1, n]⟩) :
    biasBlk m (shapeCast ⟨2, ![1, n]⟩ b hc) = bias m b := by
  funext i
  exact shapeCast_a_1a_apply b hc 0 (i 1)

/-- The layer with its bias as a one-row block is the layer. -/
theorem layerBlk_cast {n k h : Nat} (a x : Mat n k) (wl wr : Mat k h) (b : FVec Ideal ⟨1, ![h]⟩ .f32)
    (hc : (⟨1, ![h]⟩ : Shape).ShapeCasts ⟨2, ![1, h]⟩) :
    layerBlk a x wl wr (shapeCast ⟨2, ![1, h]⟩ b hc) = Cert.Sage.layer a x wl wr b := by
  unfold layerBlk Cert.Sage.layer
  rw [biasBlk_cast]

/-- The classifier: max(g · w1 + b1, 0) · w2 + b2. -/
def head {g k h o : Nat} (x : Mat g k) (w1 : Mat k h) (b1 : Row h) (w2 : Mat h o) (b2 : Row o) : Mat g o :=
  dense (rect (dense x w1 b1)) w2 b2

/-- The classifier with its biases as one-row blocks is the classifier. -/
theorem headBlk_cast {g k h o : Nat} (x : Mat g k) (w1 : Mat k h) (b1 : FVec Ideal ⟨1, ![h]⟩ .f32) (w2 : Mat h o)
    (b2 : FVec Ideal ⟨1, ![o]⟩ .f32) (h1 : (⟨1, ![h]⟩ : Shape).ShapeCasts ⟨2, ![1, h]⟩)
    (h2 : (⟨1, ![o]⟩ : Shape).ShapeCasts ⟨2, ![1, o]⟩) :
    headBlk x w1 (shapeCast ⟨2, ![1, h]⟩ b1 h1) w2 (shapeCast ⟨2, ![1, o]⟩ b2 h2) = head x w1 b1 w2 b2 := by
  unfold headBlk head dense
  rw [biasBlk_cast, biasBlk_cast]

/-! ## The network -/

/-- Layer l of the network. -/
def layer (l : Nat) (hw : SStack.Slices ![l, 0, 0] SSlab) (hb : SBiasStack.Slices ![l, 0] SBiasRow)
    (h : FVec Ideal SNode .f32) (ei : IVec SEdges 32) (wrel : FVec Ideal SStack .f32) (brel : FVec Ideal SBiasStack .f32)
    (wroot : FVec Ideal SStack .f32) : FVec Ideal SNode .f32 :=
  Cert.Sage.layer (n := 100000) (k := 64) (h := 64) (agg h ei) h (slab l hw wrel) (slab l hw wroot) (biasOf l hb brel)

/-- The node features after the four layers. -/
def layers (x : FVec Ideal SNode .f32) (ei : IVec SEdges 32) (wrel : FVec Ideal SStack .f32) (brel : FVec Ideal SBiasStack .f32)
    (wroot : FVec Ideal SStack .f32) : FVec Ideal SNode .f32 :=
  layer 3 (by decide) (by decide)
    (layer 2 (by decide) (by decide)
      (layer 1 (by decide) (by decide)
        (layer 0 (by decide) (by decide) x ei wrel brel wroot) ei wrel brel wroot) ei wrel brel wroot) ei wrel brel wroot

/-- The whole network: four layers, pooling per graph, the classifier. -/
def net (x : FVec Ideal SNode .f32) (ei : IVec SEdges 32) (batch : IVec SBatch 32) (wrel : FVec Ideal SStack .f32)
    (brel : FVec Ideal SBiasStack .f32) (wroot : FVec Ideal SStack .f32) (w1 : FVec Ideal SW .f32) (b1 : FVec Ideal SBias .f32)
    (w2 : FVec Ideal ⟨2, ![64, 16]⟩ .f32) (b2 : FVec Ideal ⟨1, ![16]⟩ .f32) : FVec Ideal ⟨2, ![1024, 16]⟩ .f32 :=
  head (g := 1024) (k := 64) (h := 64) (o := 16) (pool (layers x ei wrel brel wroot) batch) w1 b1 w2 b2

end Cert.Net

end
-- ==== Proof.Carry.lean ====
/-
  What the later stages of the kernel program read of the buffer contents at a boundary between a stretch of host
  operations and a kernel region: the arguments the later stages still use (the graph index, the stacked weights and
  biases, the classifier's weights and biases) and the two rows of the edge list, cut once by the first stretch and read
  by every layer's gather and scatter. A boundary's contents carry them when each of those buffers holds what the
  launch memory gives it.

  Also the aggregation over edge rows that are already cut: agg h ei is aggOf h (row 0 of ei) (row 1 of ei).
-/
import proofs.«162606_j46273977647663_1_alg».proof.Proof.Gen.KernelIdeal.Launch
import proofs.«162606_j46273977647663_1_alg».proof.Proof.Net
import Idealize.ShloMosaic.Lib.StableHlo.Run

noncomputable section

namespace Cert.KernelIdeal.Carry

open Idealize.ShloMosaic Idealize.ShloMosaic.TcCoe Idealize.SL.Sem Idealize.ShloMosaic.StableHlo
open Cert.KernelIdeal Cert.KernelIdeal.Gen

/-- For every node, the sum of the feature rows of the sources (src) of the edges ending at it (dst). -/
def aggOf (h : FVec Ideal Cert.Net.SNode .f32) (src dst : IVec Cert.Net.SEdge 32) : FVec Ideal Cert.Net.SNode .f32 :=
  Host.scatterAdd Cert.Net.scatterRows
    (broadcastInDim Cert.Net.SNode ![] (by decide) (constant (F := Ideal) Cert.Net.SScalar .f32 0x00000000#32))
    (broadcastInDim Cert.Net.SEdgeCol ![0] (by decide) dst)
    (Host.gather Cert.Net.gatherRows h (broadcastInDim Cert.Net.SEdgeCol ![0] (by decide) (Cert.Net.wrap src)))

theorem agg_eq (h : FVec Ideal Cert.Net.SNode .f32) (ei : IVec Cert.Net.SEdges 32) :
    Cert.Net.agg h ei = aggOf h (Cert.Net.srcRow ei) (Cert.Net.dstRow ei) := rfl

/-- The contents W hold, at the buffers the later stages read, what the launch memory m gives them. -/
structure Carried (m : (ℓ : Loc nD τ sig) → Buf (Elt Ideal) ℓ) (c : Dev nD) (W : Valuation τ sig (Elt Ideal)) : Prop where
  batch : W (Proc.devRef .tc main_arg2) = m ((c : Thread nD τ).loc main_arg2)
  wrel : W (Proc.devRef .tc main_arg3) = m ((c : Thread nD τ).loc main_arg3)
  brel : W (Proc.devRef .tc main_arg4) = m ((c : Thread nD τ).loc main_arg4)
  wroot : W (Proc.devRef .tc main_arg5) = m ((c : Thread nD τ).loc main_arg5)
  w1 : W (Proc.devRef .tc main_arg6) = m ((c : Thread nD τ).loc main_arg6)
  b1 : W (Proc.devRef .tc main_arg7) = m ((c : Thread nD τ).loc main_arg7)
  w2 : W (Proc.devRef .tc main_arg8) = m ((c : Thread nD τ).loc main_arg8)
  b2 : W (Proc.devRef .tc main_arg9) = m ((c : Thread nD τ).loc main_arg9)
  src : W (Proc.devRef .tc main_v1) = Cert.Net.srcRow (m ((c : Thread nD τ).loc main_arg1))
  dst : W (Proc.devRef .tc main_v3) = Cert.Net.dstRow (m ((c : Thread nD τ).loc main_arg1))

end Cert.KernelIdeal.Carry

end
-- ==== Proof.Stretch0.lean ====
/-
  The first stretch of host operations of the kernel program (before layer 0's region), read at the buffers that
  region and the later stages take, from ANY contents W at its start: the two rows of the edge list, the aggregation of
  the input features over them, slab 0 of the two weight stacks, row 0 of the bias stack laid out as a one-row block;
  the arguments are left as they were.
-/
import proofs.«162606_j46273977647663_1_alg».proof.Proof.Carry

noncomputable section

namespace Cert.KernelIdeal.Stretch0

open Idealize.ShloMosaic Idealize.ShloMosaic.TcCoe Idealize.SL.Sem Idealize.ShloMosaic.StableHlo
open Cert.KernelIdeal Cert.KernelIdeal.Gen Cert.KernelIdeal.Carry

variable (W : Valuation τ sig (Elt Ideal))

set_option maxHeartbeats 2000000 in
/-- The aggregated neighbour features of the input. -/
theorem agg : StableHlo.after hostOps0 W (Proc.devRef .tc main_v13)
    = Cert.Net.agg (W (Proc.devRef .tc main_arg0)) (W (Proc.devRef .tc main_arg1)) := by
  after_results_simp
  rfl

set_option maxHeartbeats 2000000 in
/-- Slab 0 of the neighbour weights. -/
theorem wrelSlab : StableHlo.after hostOps0 W (Proc.devRef .tc main_v18)
    = Cert.Net.slab 0 (by decide) (W (Proc.devRef .tc main_arg3)) := by
  after_results_simp
  rfl

set_option maxHeartbeats 2000000 in
/-- Slab 0 of the root weights. -/
theorem wrootSlab : StableHlo.after hostOps0 W (Proc.devRef .tc main_v20)
    = Cert.Net.slab 0 (by decide) (W (Proc.devRef .tc main_arg5)) := by
  after_results_simp
  rfl

set_option maxHeartbeats 2000000 in
/-- Row 0 of the biases, as a one-row block. -/
theorem biasRow : StableHlo.after hostOps0 W (Proc.devRef .tc main_v16)
    = shapeCast (⟨2, ![1, 64]⟩ : Shape) (Cert.Net.biasOf 0 (by decide) (W (Proc.devRef .tc main_arg4))) (by decide) := by
  after_results_simp
  rfl

set_option maxHeartbeats 2000000 in
/-- The input features are left as they were. -/
theorem own : StableHlo.after hostOps0 W (Proc.devRef .tc main_arg0) = W (Proc.devRef .tc main_arg0) := by
  after_results_simp

set_option maxHeartbeats 2000000 in
/-- From contents that hold the arguments, the stretch's exit contents carry what the later stages read. -/
theorem carried {m : (ℓ : Loc nD τ sig) → Buf (Elt Ideal) ℓ} {c : Dev nD}
    (h1 : W (Proc.devRef .tc main_arg1) = m ((c : Thread nD τ).loc main_arg1))
    (h2 : W (Proc.devRef .tc main_arg2) = m ((c : Thread nD τ).loc main_arg2))
    (h3 : W (Proc.devRef .tc main_arg3) = m ((c : Thread nD τ).loc main_arg3))
    (h4 : W (Proc.devRef .tc main_arg4) = m ((c : Thread nD τ).loc main_arg4))
    (h5 : W (Proc.devRef .tc main_arg5) = m ((c : Thread nD τ).loc main_arg5))
    (h6 : W (Proc.devRef .tc main_arg6) = m ((c : Thread nD τ).loc main_arg6))
    (h7 : W (Proc.devRef .tc main_arg7) = m ((c : Thread nD τ).loc main_arg7))
    (h8 : W (Proc.devRef .tc main_arg8) = m ((c : Thread nD τ).loc main_arg8))
    (h9 : W (Proc.devRef .tc main_arg9) = m ((c : Thread nD τ).loc main_arg9)) :
    Carried m c (StableHlo.after hostOps0 W) where
  batch := (by after_results_simp : StableHlo.after hostOps0 W (Proc.devRef .tc main_arg2) = W (Proc.devRef .tc main_arg2)).trans h2
  wrel := (by after_results_simp : StableHlo.after hostOps0 W (Proc.devRef .tc main_arg3) = W (Proc.devRef .tc main_arg3)).trans h3
  brel := (by after_results_simp : StableHlo.after hostOps0 W (Proc.devRef .tc main_arg4) = W (Proc.devRef .tc main_arg4)).trans h4
  wroot := (by after_results_simp : StableHlo.after hostOps0 W (Proc.devRef .tc main_arg5) = W (Proc.devRef .tc main_arg5)).trans h5
  w1 := (by after_results_simp : StableHlo.after hostOps0 W (Proc.devRef .tc main_arg6) = W (Proc.devRef .tc main_arg6)).trans h6
  b1 := (by after_results_simp : StableHlo.after hostOps0 W (Proc.devRef .tc main_arg7) = W (Proc.devRef .tc main_arg7)).trans h7
  w2 := (by after_results_simp : StableHlo.after hostOps0 W (Proc.devRef .tc main_arg8) = W (Proc.devRef .tc main_arg8)).trans h8
  b2 := (by after_results_simp : StableHlo.after hostOps0 W (Proc.devRef .tc main_arg9) = W (Proc.devRef .tc main_arg9)).trans h9
  src := (by after_results_simp; rfl : StableHlo.after hostOps0 W (Proc.devRef .tc main_v1) = Cert.Net.srcRow (W (Proc.devRef .tc main_arg1))).trans (congrArg Cert.Net.srcRow h1)
  dst := (by after_results_simp; rfl : StableHlo.after hostOps0 W (Proc.devRef .tc main_v3) = Cert.Net.dstRow (W (Proc.devRef .tc main_arg1))).trans (congrArg Cert.Net.dstRow h1)

end Cert.KernelIdeal.Stretch0

end
-- ==== Proof.Stretch1.lean ====
/-
  The second stretch of host operations of the kernel program (before layer 1's region), read at the buffers that
  region and the later stages take, from ANY contents W at its start: the aggregation of the previous layer's output
  over the edge rows, slab 1 of the two weight stacks, row 1 of the bias stack laid out as a one-row block; and every
  buffer the later stages read is left as it was.
-/
import proofs.«162606_j46273977647663_1_alg».proof.Proof.Carry

noncomputable section

namespace Cert.KernelIdeal.Stretch1

open Idealize.ShloMosaic Idealize.ShloMosaic.TcCoe Idealize.SL.Sem Idealize.ShloMosaic.StableHlo
open Cert.KernelIdeal Cert.KernelIdeal.Gen Cert.KernelIdeal.Carry

variable (W : Valuation τ sig (Elt Ideal))

set_option maxHeartbeats 2000000 in
/-- The aggregated neighbour features. -/
theorem agg : StableHlo.after hostOps1 W (Proc.devRef .tc main_v31)
    = aggOf (W (Proc.devRef .tc main_v21)) (W (Proc.devRef .tc main_v1)) (W (Proc.devRef .tc main_v3)) := by
  after_results_simp
  rfl

set_option maxHeartbeats 2000000 in
/-- Slab 1 of the neighbour weights. -/
theorem wrelSlab : StableHlo.after hostOps1 W (Proc.devRef .tc main_v36)
    = Cert.Net.slab 1 (by decide) (W (Proc.devRef .tc main_arg3)) := by
  after_results_simp
  rfl

set_option maxHeartbeats 2000000 in
/-- Slab 1 of the root weights. -/
theorem wrootSlab : StableHlo.after hostOps1 W (Proc.devRef .tc main_v38)
    = Cert.Net.slab 1 (by decide) (W (Proc.devRef .tc main_arg5)) := by
  after_results_simp
  rfl

set_option maxHeartbeats 2000000 in
/-- Row 1 of the biases, as a one-row block. -/
theorem biasRow : StableHlo.after hostOps1 W (Proc.devRef .tc main_v34)
    = shapeCast (⟨2, ![1, 64]⟩ : Shape) (Cert.Net.biasOf 1 (by decide) (W (Proc.devRef .tc main_arg4))) (by decide) := by
  after_results_simp
  rfl

set_option maxHeartbeats 2000000 in
/-- The previous layer's output is left as it was. -/
theorem own : StableHlo.after hostOps1 W (Proc.devRef .tc main_v21) = W (Proc.devRef .tc main_v21) := by
  after_results_simp

set_option maxHeartbeats 2000000 in
/-- Every buffer the later stages read is left as it was. -/
theorem carried {m : (ℓ : Loc nD τ sig) → Buf (Elt Ideal) ℓ} {c : Dev nD} (h : Carried m c W) :
    Carried m c (StableHlo.after hostOps1 W) where
  batch := (by after_results_simp : StableHlo.after hostOps1 W (Proc.devRef .tc main_arg2) = W (Proc.devRef .tc main_arg2)).trans h.batch
  wrel := (by after_results_simp : StableHlo.after hostOps1 W (Proc.devRef .tc main_arg3) = W (Proc.devRef .tc main_arg3)).trans h.wrel
  brel := (by after_results_simp : StableHlo.after hostOps1 W (Proc.devRef .tc main_arg4) = W (Proc.devRef .tc main_arg4)).trans h.brel
  wroot := (by after_results_simp : StableHlo.after hostOps1 W (Proc.devRef .tc main_arg5) = W (Proc.devRef .tc main_arg5)).trans h.wroot
  w1 := (by after_results_simp : StableHlo.after hostOps1 W (Proc.devRef .tc main_arg6) = W (Proc.devRef .tc main_arg6)).trans h.w1
  b1 := (by after_results_simp : StableHlo.after hostOps1 W (Proc.devRef .tc main_arg7) = W (Proc.devRef .tc main_arg7)).trans h.b1
  w2 := (by after_results_simp : StableHlo.after hostOps1 W (Proc.devRef .tc main_arg8) = W (Proc.devRef .tc main_arg8)).trans h.w2
  b2 := (by after_results_simp : StableHlo.after hostOps1 W (Proc.devRef .tc main_arg9) = W (Proc.devRef .tc main_arg9)).trans h.b2
  src := (by after_results_simp : StableHlo.after hostOps1 W (Proc.devRef .tc main_v1) = W (Proc.devRef .tc main_v1)).trans h.src
  dst := (by after_results_simp : StableHlo.after hostOps1 W (Proc.devRef .tc main_v3) = W (Proc.devRef .tc main_v3)).trans h.dst

end Cert.KernelIdeal.Stretch1

end
-- ==== Proof.Stretch2.lean ====
/-
  The third stretch of host operations of the kernel program (before layer 2's region), read at the buffers that
  region and the later stages take, from ANY contents W at its start: the aggregation of the previous layer's output
  over the edge rows, slab 2 of the two weight stacks, row 2 of the bias stack laid out as a one-row block; and every
  buffer the later stages read is left as it was.
-/
import proofs.«162606_j46273977647663_1_alg».proof.Proof.Carry

noncomputable section

namespace Cert.KernelIdeal.Stretch2

open Idealize.ShloMosaic Idealize.ShloMosaic.TcCoe Idealize.SL.Sem Idealize.ShloMosaic.StableHlo
open Cert.KernelIdeal Cert.KernelIdeal.Gen Cert.KernelIdeal.Carry

variable (W : Valuation τ sig (Elt Ideal))

set_option maxHeartbeats 2000000 in
/-- The aggregated neighbour features. -/
theorem agg : StableHlo.after hostOps2 W (Proc.devRef .tc main_v49)
    = aggOf (W (Proc.devRef .tc main_v39)) (W (Proc.devRef .tc main_v1)) (W (Proc.devRef .tc main_v3)) := by
  after_results_simp
  rfl

set_option maxHeartbeats 2000000 in
/-- Slab 2 of the neighbour weights. -/
theorem wrelSlab : StableHlo.after hostOps2 W (Proc.devRef .tc main_v54)
    = Cert.Net.slab 2 (by decide) (W (Proc.devRef .tc main_arg3)) := by
  after_results_simp
  rfl

set_option maxHeartbeats 2000000 in
/-- Slab 2 of the root weights. -/
theorem wrootSlab : StableHlo.after hostOps2 W (Proc.devRef .tc main_v56)
    = Cert.Net.slab 2 (by decide) (W (Proc.devRef .tc main_arg5)) := by
  after_results_simp
  rfl

set_option maxHeartbeats 2000000 in
/-- Row 2 of the biases, as a one-row block. -/
theorem biasRow : StableHlo.after hostOps2 W (Proc.devRef .tc main_v52)
    = shapeCast (⟨2, ![1, 64]⟩ : Shape) (Cert.Net.biasOf 2 (by decide) (W (Proc.devRef .tc main_arg4))) (by decide) := by
  after_results_simp
  rfl

set_option maxHeartbeats 2000000 in
/-- The previous layer's output is left as it was. -/
theorem own : StableHlo.after hostOps2 W (Proc.devRef .tc main_v39) = W (Proc.devRef .tc main_v39) := by
  after_results_simp

set_option maxHeartbeats 2000000 in
/-- Every buffer the later stages read is left as it was. -/
theorem carried {m : (ℓ : Loc nD τ sig) → Buf (Elt Ideal) ℓ} {c : Dev nD} (h : Carried m c W) :
    Carried m c (StableHlo.after hostOps2 W) where
  batch := (by after_results_simp : StableHlo.after hostOps2 W (Proc.devRef .tc main_arg2) = W (Proc.devRef .tc main_arg2)).trans h.batch
  wrel := (by after_results_simp : StableHlo.after hostOps2 W (Proc.devRef .tc main_arg3) = W (Proc.devRef .tc main_arg3)).trans h.wrel
  brel := (by after_results_simp : StableHlo.after hostOps2 W (Proc.devRef .tc main_arg4) = W (Proc.devRef .tc main_arg4)).trans h.brel
  wroot := (by after_results_simp : StableHlo.after hostOps2 W (Proc.devRef .tc main_arg5) = W (Proc.devRef .tc main_arg5)).trans h.wroot
  w1 := (by after_results_simp : StableHlo.after hostOps2 W (Proc.devRef .tc main_arg6) = W (Proc.devRef .tc main_arg6)).trans h.w1
  b1 := (by after_results_simp : StableHlo.after hostOps2 W (Proc.devRef .tc main_arg7) = W (Proc.devRef .tc main_arg7)).trans h.b1
  w2 := (by after_results_simp : StableHlo.after hostOps2 W (Proc.devRef .tc main_arg8) = W (Proc.devRef .tc main_arg8)).trans h.w2
  b2 := (by after_results_simp : StableHlo.after hostOps2 W (Proc.devRef .tc main_arg9) = W (Proc.devRef .tc main_arg9)).trans h.b2
  src := (by after_results_simp : StableHlo.after hostOps2 W (Proc.devRef .tc main_v1) = W (Proc.devRef .tc main_v1)).trans h.src
  dst := (by after_results_simp : StableHlo.after hostOps2 W (Proc.devRef .tc main_v3) = W (Proc.devRef .tc main_v3)).trans h.dst

end Cert.KernelIdeal.Stretch2

end
-- ==== Proof.Stretch3.lean ====
/-
  The fourth stretch of host operations of the kernel program (before layer 3's region), read at the buffers that
  region and the later stages take, from ANY contents W at its start: the aggregation of the previous layer's output
  over the edge rows, slab 3 of the two weight stacks, row 3 of the bias stack laid out as a one-row block; and every
  buffer the later stages read is left as it was.
-/
import proofs.«162606_j46273977647663_1_alg».proof.Proof.Carry

noncomputable section

namespace Cert.KernelIdeal.Stretch3

open Idealize.ShloMosaic Idealize.ShloMosaic.TcCoe Idealize.SL.Sem Idealize.ShloMosaic.StableHlo
open Cert.KernelIdeal Cert.KernelIdeal.Gen Cert.KernelIdeal.Carry

variable (W : Valuation τ sig (Elt Ideal))

set_option maxHeartbeats 2000000 in
/-- The aggregated neighbour features. -/
theorem agg : StableHlo.after hostOps3 W (Proc.devRef .tc main_v67)
    = aggOf (W (Proc.devRef .tc main_v57)) (W (Proc.devRef .tc main_v1)) (W (Proc.devRef .tc main_v3)) := by
  after_results_simp
  rfl

set_option maxHeartbeats 2000000 in
/-- Slab 3 of the neighbour weights. -/
theorem wrelSlab : StableHlo.after hostOps3 W (Proc.devRef .tc main_v72)
    = Cert.Net.slab 3 (by decide) (W (Proc.devRef .tc main_arg3)) := by
  after_results_simp
  rfl

set_option maxHeartbeats 2000000 in
/-- Slab 3 of the root weights. -/
theorem wrootSlab : StableHlo.after hostOps3 W (Proc.devRef .tc main_v74)
    = Cert.Net.slab 3 (by decide) (W (Proc.devRef .tc main_arg5)) := by
  after_results_simp
  rfl

set_option maxHeartbeats 2000000 in
/-- Row 3 of the biases, as a one-row block. -/
theorem biasRow : StableHlo.after hostOps3 W (Proc.devRef .tc main_v70)
    = shapeCast (⟨2, ![1, 64]⟩ : Shape) (Cert.Net.biasOf 3 (by decide) (W (Proc.devRef .tc main_arg4))) (by decide) := by
  after_results_simp
  rfl

set_option maxHeartbeats 2000000 in
/-- The previous layer's output is left as it was. -/
theorem own : StableHlo.after hostOps3 W (Proc.devRef .tc main_v57) = W (Proc.devRef .tc main_v57) := by
  after_results_simp

set_option maxHeartbeats 2000000 in
/-- Every buffer the later stages read is left as it was. -/
theorem carried {m : (ℓ : Loc nD τ sig) → Buf (Elt Ideal) ℓ} {c : Dev nD} (h : Carried m c W) :
    Carried m c (StableHlo.after hostOps3 W) where
  batch := (by after_results_simp : StableHlo.after hostOps3 W (Proc.devRef .tc main_arg2) = W (Proc.devRef .tc main_arg2)).trans h.batch
  wrel := (by after_results_simp : StableHlo.after hostOps3 W (Proc.devRef .tc main_arg3) = W (Proc.devRef .tc main_arg3)).trans h.wrel
  brel := (by after_results_simp : StableHlo.after hostOps3 W (Proc.devRef .tc main_arg4) = W (Proc.devRef .tc main_arg4)).trans h.brel
  wroot := (by after_results_simp : StableHlo.after hostOps3 W (Proc.devRef .tc main_arg5) = W (Proc.devRef .tc main_arg5)).trans h.wroot
  w1 := (by after_results_simp : StableHlo.after hostOps3 W (Proc.devRef .tc main_arg6) = W (Proc.devRef .tc main_arg6)).trans h.w1
  b1 := (by after_results_simp : StableHlo.after hostOps3 W (Proc.devRef .tc main_arg7) = W (Proc.devRef .tc main_arg7)).trans h.b1
  w2 := (by after_results_simp : StableHlo.after hostOps3 W (Proc.devRef .tc main_arg8) = W (Proc.devRef .tc main_arg8)).trans h.w2
  b2 := (by after_results_simp : StableHlo.after hostOps3 W (Proc.devRef .tc main_arg9) = W (Proc.devRef .tc main_arg9)).trans h.b2
  src := (by after_results_simp : StableHlo.after hostOps3 W (Proc.devRef .tc main_v1) = W (Proc.devRef .tc main_v1)).trans h.src
  dst := (by after_results_simp : StableHlo.after hostOps3 W (Proc.devRef .tc main_v3) = W (Proc.devRef .tc main_v3)).trans h.dst

end Cert.KernelIdeal.Stretch3

end
-- ==== Proof.Stretch4.lean ====
/-
  The last stretch of host operations of the kernel program (before the classifier's region), read at the buffers that
  region takes, from ANY contents W at its start: the last layer's output summed per graph, the two classifier biases
  laid out as one-row blocks; the classifier's weights are left as they were.
-/
import proofs.«162606_j46273977647663_1_alg».proof.Proof.Carry

noncomputable section

namespace Cert.KernelIdeal.Stretch4

open Idealize.ShloMosaic Idealize.ShloMosaic.TcCoe Idealize.SL.Sem Idealize.ShloMosaic.StableHlo
open Cert.KernelIdeal Cert.KernelIdeal.Gen Cert.KernelIdeal.Carry

variable (W : Valuation τ sig (Elt Ideal))

set_option maxHeartbeats 2000000 in
/-- The pooled features. -/
theorem pooled : StableHlo.after hostOps4 W (Proc.devRef .tc main_v78)
    = Cert.Net.pool (W (Proc.devRef .tc main_v75)) (W (Proc.devRef .tc main_arg2)) := by
  after_results_simp
  rfl

set_option maxHeartbeats 2000000 in
/-- The hidden bias, as a one-row block. -/
theorem bias1Row : StableHlo.after hostOps4 W (Proc.devRef .tc main_v79)
    = shapeCast (⟨2, ![1, 64]⟩ : Shape) (W (Proc.devRef .tc main_arg7)) (by decide) := by
  after_results_simp
  rfl

set_option maxHeartbeats 2000000 in
/-- The output bias, as a one-row block. -/
theorem bias2Row : StableHlo.after hostOps4 W (Proc.devRef .tc main_v80)
    = shapeCast (⟨2, ![1, 16]⟩ : Shape) (W (Proc.devRef .tc main_arg9)) (by decide) := by
  after_results_simp
  rfl

set_option maxHeartbeats 2000000 in
/-- The hidden weights are left as they were. -/
theorem w1 : StableHlo.after hostOps4 W (Proc.devRef .tc main_arg6) = W (Proc.devRef .tc main_arg6) := by
  after_results_simp

set_option maxHeartbeats 2000000 in
/-- The output weights are left as they were. -/
theorem w2 : StableHlo.after hostOps4 W (Proc.devRef .tc main_arg8) = W (Proc.devRef .tc main_arg8) := by
  after_results_simp

end Cert.KernelIdeal.Stretch4

end
-- ==== Proof.Region0.lean ====
/-
  The first graph-convolution layer's dense part, computed block by block, is the layer of the whole arrays.

  The grid has 20 points. Point t reads rows 5000 t … 5000 t + 4999 of the aggregated features a [100000, 64] and of
  the nodes' own features x [100000, 64], the whole weights wl, wr [64, 64] and the whole bias row b [1, 64], and
  writes rows 5000 t … 5000 t + 4999 of the output. What it writes is, entry (p, q) of the block,

      max ( Σ_j a(5000 t + p, j) · wl(j, q)  +  Σ_j x(5000 t + p, j) · wr(j, q)  +  b(0, q) ,  0 ),

  because a row of the layer depends on the same row of a and of x only. Every row r of the output lies in the block
  of point r / 5000, so after the last point the output array is the layer formula of the arrays as the first point
  found them.
-/
import proofs.«162606_j46273977647663_1_alg».proof.Proof.Gen.KernelIdeal.Frame
import proofs.«162606_j46273977647663_1_alg».proof.Proof.Net

noncomputable section

namespace Cert.KernelIdeal.Regions

open Idealize.ShloMosaic Idealize.ShloMosaic.TcCoe Idealize.SL.Sem Cert.KernelIdeal Cert.KernelIdeal.Gen
open Idealize.ShloMosaic.ValueIdx Cert.Layers Cert.Net

namespace Layer0

/-- The zero offsets of a whole-block access, however they are spelt. -/
theorem zeroOffsets : (![0, 0] : Fin 2 → Nat) = fun _ => 0 := funext fun a => by fin_cases a <;> rfl

/-- One grid point's stored value is the layer formula of its five loaded blocks. -/
theorem pay (a x : Vec Ideal S5000x64 .f32) (wl wr : Vec Ideal S64x64 .f32) (b : Vec Ideal S1x64 .f32) :
    k0_pay1 a x wl wr b = layerBlk (n := 5000) (k := 64) (h := 64) a x wl wr b := by
  unfold k0_pay1
  dsimp only
  rw [shapeCast_self, shapeCast_self, shapeCast_self, shapeCast_self]
  rw [tileRect_eq]
  rw [tileMm_eq dot_S5000x64_S64x64_S5000x64_1_0_0_1_n_n dot_S5000x64_S64x64_S5000x64_1_0_0_1_n_n_wf rfl _ wl bitsLt_bf16_f32,
    tileMm_eq dot_S5000x64_S64x64_S5000x64_1_0_0_1_n_n dot_S5000x64_S64x64_S5000x64_1_0_0_1_n_n_wf rfl _ wr bitsLt_bf16_f32]
  unfold layerBlk
  refine congrArg rect ?_
  funext i
  obtain ⟨p, q, rfl⟩ : ∃ (p : Fin 5000) (q : Fin 64), i = ix2 p q := ⟨i 0, i 1, eq_ix2 i⟩
  exact congrArg (mm a wl (ix2 p q) + mm x wr (ix2 p q) + ·) (broadcastTo_1b_ab_apply b broadcasts_S1x64_S5000x64 p q)

/-- Row p' of the layer of two blocks whose rows p' are rows p of the arrays is row p of the layer of the arrays. -/
theorem layerBlk_rows {n n' k h : Nat} (a x : Mat n k) (a' x' : Mat n' k) (wl wr : Mat k h) (b : Mat 1 h)
    (p' : Fin n') (p : Fin n) (ha : ∀ j, a' (ix2 p' j) = a (ix2 p j)) (hx : ∀ j, x' (ix2 p' j) = x (ix2 p j)) (q : Fin h) :
    layerBlk a' x' wl wr b (ix2 p' q) = layerBlk a x wl wr b (ix2 p q) := by
  show max ((∑ j : Fin k, a' (ix2 p' j) * wl (ix2 j q) + ∑ j : Fin k, x' (ix2 p' j) * wr (ix2 j q)) + b (ix2 (0 : Fin 1) q)) _
    = max ((∑ j : Fin k, a (ix2 p j) * wl (ix2 j q) + ∑ j : Fin k, x (ix2 p j) * wr (ix2 j q)) + b (ix2 (0 : Fin 1) q)) _
  simp only [ha, hx]

/-- The printed index maps, decided over the grid: the two row-blocked inputs and the output sit at block (t, 0),
    the weights and the bias at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated features' block at point t is row 5000 t + p of the array. -/
theorem aggBlock_row (V : (c : Dev nD) → (b : Ref sig .tc) → Buf (Elt Ideal) ((c : Thread nD τ).loc b)) (c : Dev nD) (t : Fin cfg0.N) (p : Fin 5000) (j : Fin 64)
    (r : Fin 100000) (hr : r.val = t.val * 5000 + p.val) :
    (iblk0 V c 0 t : Vec Ideal S5000x64 .f32) (ix2 p j) = (V c main_v13 : S100000x64.Idx → EReal) (ix2 r j) := by
  obtain ⟨e0, e1, -⟩ := blockIndex t
  show V c main_v13 (((cfg0.win 0).blk t).view.emb (ix2 p j)) = _
  refine congrArg (V c main_v13) ?_
  funext a; apply Fin.ext
  match a with
  | ⟨0, _⟩ => show win0_0.index t (0 : Fin 2) * 5000 + 1 * p.val = r.val; omega
  | ⟨1, _⟩ => show win0_0.index t (1 : Fin 2) * 64 + 1 * j.val = j.val; omega

/-- Row p of the nodes' own features' block at point t is row 5000 t + p of the array. -/
theorem ownBlock_row (V : (c : Dev nD) → (b : Ref sig .tc) → Buf (Elt Ideal) ((c : Thread nD τ).loc b)) (c : Dev nD) (t : Fin cfg0.N) (p : Fin 5000) (j : Fin 64)
    (r : Fin 100000) (hr : r.val = t.val * 5000 + p.val) :
    (iblk0 V c 1 t : Vec Ideal S5000x64 .f32) (ix2 p j) = (V c main_arg0 : S100000x64.Idx → EReal) (ix2 r j) := by
  obtain ⟨-, -, e0, e1, -⟩ := blockIndex t
  show V c main_arg0 (((cfg0.win 1).blk t).view.emb (ix2 p j)) = _
  refine congrArg (V c main_arg0) ?_
  funext a; apply Fin.ext
  match a with
  | ⟨0, _⟩ => show win0_1.index t (0 : Fin 2) * 5000 + 1 * p.val = r.val; omega
  | ⟨1, _⟩ => show win0_1.index t (1 : Fin 2) * 64 + 1 * j.val = j.val; omega

/-- The first weight's block at every point is the whole slab. -/
theorem relBlock (V : (c : Dev nD) → (b : Ref sig .tc) → Buf (Elt Ideal) ((c : Thread nD τ).loc b)) (c : Dev nD) (t : Fin cfg0.N) : (iblk0 V c 2 t : Vec Ideal S64x64 .f32) = V c main_v18 := by
  obtain ⟨-, -, -, -, e0, e1, -⟩ := blockIndex t
  refine funext fun (y : S64x64.Idx) => ?_
  show V c main_v18 (((cfg0.win 2).blk t).view.emb y) = V c main_v18 y
  refine congrArg (V c main_v18) ?_
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The bias row's block at every point is the whole row. -/
theorem biasBlock (V : (c : Dev nD) → (b : Ref sig .tc) → Buf (Elt Ideal) ((c : Thread nD τ).loc b)) (c : Dev nD) (t : Fin cfg0.N) : (iblk0 V c 3 t : Vec Ideal S1x64 .f32) = V c main_v16 := by
  obtain ⟨-, -, -, -, -, -, e0, e1, -⟩ := blockIndex t
  refine funext fun (y : S1x64.Idx) => ?_
  show V c main_v16 (((cfg0.win 3).blk t).view.emb y) = V c main_v16 y
  refine congrArg (V c main_v16) ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The second weight's block at every point is the whole slab. -/
theorem rootBlock (V : (c : Dev nD) → (b : Ref sig .tc) → Buf (Elt Ideal) ((c : Thread nD τ).loc b)) (c : Dev nD) (t : Fin cfg0.N) : (iblk0 V c 4 t : Vec Ideal S64x64 .f32) = V c main_v20 := by
  obtain ⟨-, -, -, -, -, -, -, -, e0, e1, -⟩ := blockIndex t
  refine funext fun (y : S64x64.Idx) => ?_
  show V c main_v20 (((cfg0.win 4).blk t).view.emb y) = V c main_v20 y
  refine congrArg (V c main_v20) ?_
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- What point t writes back is block t of the layer of the whole arrays. -/
theorem flushed_eq (V : (c : Dev nD) → (b : Ref sig .tc) → Buf (Elt Ideal) ((c : Thread nD τ).loc b)) (c : Dev nD) (t : Fin cfg0.N) :
    (dat0 (F := Ideal) V c).flushed 5 t
      = ((cfg0.win 5).blk t).view.read (Elt Ideal)
          (layerBlk (n := 100000) (k := 64) (h := 64) (V c main_v13) (V c main_arg0) (V c main_v18) (V c main_v20) (V c main_v16)) := by
  show (cfg0.win 5).cut (grid0.coords t) ((dat0 V c).after 5 t) = _
  rw [after0_5]
  unfold out0_5
  rw [View.canon_unit_zero zeroOffsets]
  simp only [View.ld_unit_zero (S := S5000x64) zeroOffsets, View.ld_unit_zero (S := S64x64) zeroOffsets,
    View.ld_unit_zero (S := S1x64) zeroOffsets]
  rw [pay, relBlock, biasBlock, rootBlock]
  have hN : cfg0.N = 20 := N_0
  have ht : t.val < cfg0.N := t.isLt
  obtain ⟨-, -, -, -, -, -, -, -, -, -, e0, e1⟩ := blockIndex t
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hemb : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show layerBlk (n := 5000) (k := 64) (h := 64) (iblk0 V c 0 t) (iblk0 V c 1 t) (V c main_v18) (V c main_v20) (V c main_v16) (ix2 p q)
    = layerBlk (n := 100000) (k := 64) (h := 64) (V c main_v13) (V c main_arg0) (V c main_v18) (V c main_v20) (V c main_v16)
        (((cfg0.win 5).blk t).view.emb (ix2 p q))
  rw [hemb]
  exact layerBlk_rows _ _ _ _ _ _ _ p _ (fun j => aggBlock_row V c t p j _ rfl) (fun j => ownBlock_row V c t p j _ rfl) q

/-- An index of the array is in point t's block iff each coordinate is in the block's range on its axis. -/
theorem mem_blk (t : Fin cfg0.N) (i : S100000x64.Idx) :
    i ∈ ((cfg0.win 5).blk t).view.set
      ↔ ∀ a : Fin 2, win0_5.index t a * S5000x64.size a ≤ (i a).val ∧ (i a).val < win0_5.index t a * S5000x64.size a + S5000x64.size a := by
  show i ∈ ((View.whole main_v21).slice (win0_5.rect t)).set ↔ _
  rw [View.set_slice_whole, Rect.mem_set_unit]
  exact Iff.rfl

/-- Every row of the array is in the block of the point its row index divided by 5000 names. -/
theorem cover (i : S100000x64.Idx) : ∃ t : Fin cfg0.N, (cfg0.win 5).flush t = true ∧ i ∈ ((cfg0.win 5).blk t).view.set := by
  have hN : cfg0.N = 20 := N_0
  have hi0 : (i 0).val < 100000 := (i 0).isLt
  have hi1 : (i 1).val < 64 := (i 1).isLt
  refine ⟨⟨(i 0).val / 5000, by omega⟩, flush0_5 _, ?_⟩
  rw [mem_blk]
  obtain ⟨-, -, -, -, -, -, -, -, -, -, e0, e1⟩ := blockIndex ⟨(i 0).val / 5000, by omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

end Layer0

open Layer0 in
/-- After the region the output array holds the layer of the arrays the region found. -/
theorem arr0 (V : (c : Dev nD) → (b : Ref sig .tc) → Buf (Elt Ideal) ((c : Thread nD τ).loc b)) (c : Dev nD) :
    (dat0 (F := Ideal) V c).arrAt 5 cfg0.N
      = Cert.Net.layerBlk (n := 100000) (k := 64) (h := 64) (V c main_v13) (V c main_arg0) (V c main_v18) (V c main_v20) (V c main_v16) :=
  (dat0 (F := Ideal) V c).arrAt_eq_of_cover 5 _ (fun t _ => flushed_eq V c t) cover

end Cert.KernelIdeal.Regions

end
-- ==== Proof.Region1.lean ====
/-
  The second graph-convolution layer's dense part, computed block by block, is the layer of the whole arrays.

  The grid has 20 points. Point t reads rows 5000 t … 5000 t + 4999 of the aggregated features a [100000, 64] and of
  the nodes' own features x [100000, 64], the whole weights wl, wr [64, 64] and the whole bias row b [1, 64], and
  writes rows 5000 t … 5000 t + 4999 of the output. What it writes is, entry (p, q) of the block,

      max ( Σ_j a(5000 t + p, j) · wl(j, q)  +  Σ_j x(5000 t + p, j) · wr(j, q)  +  b(0, q) ,  0 ),

  because a row of the layer depends on the same row of a and of x only. Every row r of the output lies in the block
  of point r / 5000, so after the last point the output array is the layer formula of the arrays as the first point
  found them.
-/
import proofs.«162606_j46273977647663_1_alg».proof.Proof.Gen.KernelIdeal.Frame
import proofs.«162606_j46273977647663_1_alg».proof.Proof.Net

noncomputable section

namespace Cert.KernelIdeal.Regions

open Idealize.ShloMosaic Idealize.ShloMosaic.TcCoe Idealize.SL.Sem Cert.KernelIdeal Cert.KernelIdeal.Gen
open Idealize.ShloMosaic.ValueIdx Cert.Layers Cert.Net

namespace Layer1

/-- The zero offsets of a whole-block access, however they are spelt. -/
theorem zeroOffsets : (![0, 0] : Fin 2 → Nat) = fun _ => 0 := funext fun a => by fin_cases a <;> rfl

/-- One grid point's stored value is the layer formula of its five loaded blocks. -/
theorem pay (a x : Vec Ideal S5000x64 .f32) (wl wr : Vec Ideal S64x64 .f32) (b : Vec Ideal S1x64 .f32) :
    k1_pay1 a x wl wr b = layerBlk (n := 5000) (k := 64) (h := 64) a x wl wr b := by
  unfold k1_pay1
  dsimp only
  rw [shapeCast_self, shapeCast_self, shapeCast_self, shapeCast_self, shapeCast_self]
  rw [tileRect_eq]
  rw [tileMm_eq dot_S5000x64_S64x64_S5000x64_1_0_0_1_n_n dot_S5000x64_S64x64_S5000x64_1_0_0_1_n_n_wf rfl _ wl bitsLt_bf16_f32,
    tileMm_eq dot_S5000x64_S64x64_S5000x64_1_0_0_1_n_n dot_S5000x64_S64x64_S5000x64_1_0_0_1_n_n_wf rfl _ wr bitsLt_bf16_f32]
  unfold layerBlk
  refine congrArg rect ?_
  funext i
  obtain ⟨p, q, rfl⟩ : ∃ (p : Fin 5000) (q : Fin 64), i = ix2 p q := ⟨i 0, i 1, eq_ix2 i⟩
  exact congrArg (mm a wl (ix2 p q) + mm x wr (ix2 p q) + ·) (broadcastTo_1b_ab_apply b broadcasts_S1x64_S5000x64 p q)

/-- Row p' of the layer of two blocks whose rows p' are rows p of the arrays is row p of the layer of the arrays. -/
theorem layerBlk_rows {n n' k h : Nat} (a x : Mat n k) (a' x' : Mat n' k) (wl wr : Mat k h) (b : Mat 1 h)
    (p' : Fin n') (p : Fin n) (ha : ∀ j, a' (ix2 p' j) = a (ix2 p j)) (hx : ∀ j, x' (ix2 p' j) = x (ix2 p j)) (q : Fin h) :
    layerBlk a' x' wl wr b (ix2 p' q) = layerBlk a x wl wr b (ix2 p q) := by
  show max ((∑ j : Fin k, a' (ix2 p' j) * wl (ix2 j q) + ∑ j : Fin k, x' (ix2 p' j) * wr (ix2 j q)) + b (ix2 (0 : Fin 1) q)) _
    = max ((∑ j : Fin k, a (ix2 p j) * wl (ix2 j q) + ∑ j : Fin k, x (ix2 p j) * wr (ix2 j q)) + b (ix2 (0 : Fin 1) q)) _
  simp only [ha, hx]

/-- The printed index maps, decided over the grid: the two row-blocked inputs and the output sit at block (t, 0),
    the weights and the bias at block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregated features' block at point t is row 5000 t + p of the array. -/
theorem aggBlock_row (V : (c : Dev nD) → (b : Ref sig .tc) → Buf (Elt Ideal) ((c : Thread nD τ).loc b)) (c : Dev nD) (t : Fin cfg1.N) (p : Fin 5000) (j : Fin 64)
    (r : Fin 100000) (hr : r.val = t.val * 5000 + p.val) :
    (iblk1 V c 0 t : Vec Ideal S5000x64 .f32) (ix2 p j) = (V c main_v31 : S100000x64.Idx → EReal) (ix2 r j) := by
  obtain ⟨e0, e1, -⟩ := blockIndex t
  show V c main_v31 (((cfg1.win 0).blk t).view.emb (ix2 p j)) = _
  refine congrArg (V c main_v31) ?_
  funext a; apply Fin.ext
  match a with
  | ⟨0, _⟩ => show win1_0.index t (0 : Fin 2) * 5000 + 1 * p.val = r.val; omega
  | ⟨1, _⟩ => show win1_0.index t (1 : Fin 2) * 64 + 1 * j.val = j.val; omega

/-- Row p of the nodes' own features' block at point t is row 5000 t + p of the array. -/
theorem ownBlock_row (V : (c : Dev nD) → (b : Ref sig .tc) → Buf (Elt Ideal) ((c : Thread nD τ).loc b)) (c : Dev nD) (t : Fin cfg1.N) (p : Fin 5000) (j : Fin 64)
    (r : Fin 100000) (hr : r.val = t.val * 5000 + p.val) :
    (iblk1 V c 1 t : Vec Ideal S5000x64 .f32) (ix2 p j) = (V c main_v21 : S100000x64.Idx → EReal) (ix2 r j) := by
  obtain ⟨-, -, e0, e1, -⟩ := blockIndex t
  show V c main_v21 (((cfg1.win 1).blk t).view.emb (ix2 p j)) = _
  refine congrArg (V c main_v21) ?_
  funext a; apply Fin.ext
  match a with
  | ⟨0, _⟩ => show win1_1.index t (0 : Fin 2) * 5000 + 1 * p.val = r.val; omega
  | ⟨1, _⟩ => show win1_1.index t (1 : Fin 2) * 64 + 1 * j.val = j.val; omega

/-- The first weight's block at every point is the whole slab. -/
theorem relBlock (V : (c : Dev nD) → (b : Ref sig .tc) → Buf (Elt Ideal) ((c : Thread nD τ).loc b)) (c : Dev nD) (t : Fin cfg1.N) : (iblk1 V c 2 t : Vec Ideal S64x64 .f32) = V c main_v36 := by
  obtain ⟨-, -, -, -, e0, e1, -⟩ := blockIndex t
  refine funext fun (y : S64x64.Idx) => ?_
  show V c main_v36 (((cfg1.win 2).blk t).view.emb y) = V c main_v36 y
  refine congrArg (V c main_v36) ?_
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The bias row's block at every point is the whole row. -/
theorem biasBlock (V : (c : Dev nD) → (b : Ref sig .tc) → Buf (Elt Ideal) ((c : Thread nD τ).loc b)) (c : Dev nD) (t : Fin cfg1.N) : (iblk1 V c 3 t : Vec Ideal S1x64 .f32) = V c main_v34 := by
  obtain ⟨-, -, -, -, -, -, e0, e1, -⟩ := blockIndex t
  refine funext fun (y : S1x64.Idx) => ?_
  show V c main_v34 (((cfg1.win 3).blk t).view.emb y) = V c main_v34 y
  refine congrArg (V c main_v34) ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The second weight's block at every point is the whole slab. -/
theorem rootBlock (V : (c : Dev nD) → (b : Ref sig .tc) → Buf (Elt Ideal) ((c : Thread nD τ).loc b)) (c : Dev nD) (t : Fin cfg1.N) : (iblk1 V c 4 t : Vec Ideal S64x64 .f32) = V c main_v38 := by
  obtain ⟨-, -, -, -, -, -, -, -, e0, e1, -⟩ := blockIndex t
  refine funext fun (y : S64x64.Idx) => ?_
  show V c main_v38 (((cfg1.win 4).blk t).view.emb y) = V c main_v38 y
  refine congrArg (V c main_v38) ?_
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- What point t writes back is block t of the layer of the whole arrays. -/
theorem flushed_eq (V : (c : Dev nD) → (b : Ref sig .tc) → Buf (Elt Ideal) ((c : Thread nD τ).loc b)) (c : Dev nD) (t : Fin cfg1.N) :
    (dat1 (F := Ideal) V c).flushed 5 t
      = ((cfg1.win 5).blk t).view.read (Elt Ideal)
          (layerBlk (n := 100000) (k := 64) (h := 64) (V c main_v31) (V c main_v21) (V c main_v36) (V c main_v38) (V c main_v34)) := by
  show (cfg1.win 5).cut (grid1.coords t) ((dat1 V c).after 5 t) = _
  rw [after1_5]
  unfold out1_5
  rw [View.canon_unit_zero zeroOffsets]
  simp only [View.ld_unit_zero (S := S5000x64) zeroOffsets, View.ld_unit_zero (S := S64x64) zeroOffsets,
    View.ld_unit_zero (S := S1x64) zeroOffsets]
  rw [pay, relBlock, biasBlock, rootBlock]
  have hN : cfg1.N = 20 := N_1
  have ht : t.val < cfg1.N := t.isLt
  obtain ⟨-, -, -, -, -, -, -, -, -, -, e0, e1⟩ := blockIndex t
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hemb : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  show layerBlk (n := 5000) (k := 64) (h := 64) (iblk1 V c 0 t) (iblk1 V c 1 t) (V c main_v36) (V c main_v38) (V c main_v34) (ix2 p q)
    = layerBlk (n := 100000) (k := 64) (h := 64) (V c main_v31) (V c main_v21) (V c main_v36) (V c main_v38) (V c main_v34)
        (((cfg1.win 5).blk t).view.emb (ix2 p q))
  rw [hemb]
  exact layerBlk_rows _ _ _ _ _ _ _ p _ (fun j => aggBlock_row V c t p j _ rfl) (fun j => ownBlock_row V c t p j _ rfl) q

/-- An index of the array is in point t's block iff each coordinate is in the block's range on its axis. -/
theorem mem_blk (t : Fin cfg1.N) (i : S100000x64.Idx) :
    i ∈ ((cfg1.win 5).blk t).view.set
      ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- Every row of the array is in the block of the point its row index divided by 5000 names. -/
theorem cover (i : S100000x64.Idx) : ∃ t : Fin cfg1.N, (cfg1.win 5).flush t = true ∧ i ∈ ((cfg1.win 5).blk t).view.set := by
  have hN : cfg1.N = 20 := N_1
  have hi0 : (i 0).val < 100000 := (i 0).isLt
  have hi1 : (i 1).val < 64 := (i 1).isLt
  refine ⟨⟨(i 0).val / 5000, by omega⟩, flush1_5 _, ?_⟩
  rw [mem_blk]
  obtain ⟨-, -, -, -, -, -, -, -, -, -, e0, e1⟩ := blockIndex ⟨(i 0).val / 5000, by omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e1]; omega

end Layer1

open Layer1 in
/-- After the region the output array holds the layer of the arrays the region found. -/
theorem arr1 (V : (c : Dev nD) → (b : Ref sig .tc) → Buf (Elt Ideal) ((c : Thread nD τ).loc b)) (c : Dev nD) :
    (dat1 (F := Ideal) V c).arrAt 5 cfg1.N
      = Cert.Net.layerBlk (n := 100000) (k := 64) (h := 64) (V c main_v31) (V c main_v21) (V c main_v36) (V c main_v38) (V c main_v34) :=
  (dat1 (F := Ideal) V c).arrAt_eq_of_cover 5 _ (fun t _ => flushed_eq V c t) cover

end Cert.KernelIdeal.Regions

end
-- ==== Proof.Region2.lean ====
/-
  The third graph-convolution layer's dense part, computed block by block, is the layer of the whole arrays.

  The grid has 20 points. Point t reads rows 5000 t … 5000 t + 4999 of the aggregated features a [100000, 64] and of
  the nodes' own features x [100000, 64], the whole weights wl, wr [64, 64] and the whole bias row b [1, 64], and
  writes rows 5000 t … 5000 t + 4999 of the output. What it writes is, entry (p, q) of the block,

      max ( Σ_j a(5000 t + p, j) · wl(j, q)  +  Σ_j x(5000 t + p, j) · wr(j, q)  +  b(0, q) ,  0 ),

  because a row of the layer depends on the same row of a and of x only. Every row r of the output lies in the block
  of point r / 5000, so after the last point the output array is the layer formula of the arrays as the first point
  found them.
-/
import proofs.«162606_j46273977647663_1_alg».proof.Proof.Gen.KernelIdeal.Frame
import proofs.«162606_j46273977647663_1_alg».proof.Proof.Net

noncomputable section

namespace Cert.KernelIdeal.Regions

open Idealize.ShloMosaic Idealize.ShloMosaic.TcCoe Idealize.SL.Sem Cert.KernelIdeal Cert.KernelIdeal.Gen
open Idealize.ShloMosaic.ValueIdx Cert.Layers Cert.Net

namespace Layer2

/-- The zero offsets of a whole-block access, however they are spelt. -/
theorem zeroOffsets : (![0, 0] : Fin 2 → Nat) = fun _ => 0 := funext fun a => by fin_cases a <;> rfl

/-- One grid point's stored value is the layer formula of its five loaded blocks. -/
theorem pay (a x : Vec Ideal S5000x64 .f32) (wl wr : Vec Ideal S64x64 .f32) (b : Vec Ideal S1x64 .f32) :
    k2_pay1 a x wl wr b = layerBlk (n := 5000) (k := 64) (h := 64) a x wl wr b := by
  unfold k2_pay1
  dsimp only
  rw [shapeCast_self, shapeCast_self, shapeCast_self, shapeCast_self, shapeCast_self]
  rw [tileRect_eq]
  rw [tileMm_eq dot_S5000x64_S64x64_S5000x64_1_0_0_1_n_n dot_S5000x64_S64x64_S5000x64_1_0_0_1_n_n_wf rfl _ wl bitsLt_bf16_f32,
    tileMm_eq dot_S5000x64_S64x64_S5000x64_1_0_0_1_n_n dot_S5000x64_S64x64_S5000x64_1_0_0_1_n_n_wf rfl _ wr bitsLt_bf16_f32]
  unfold layerBlk
  refine congrArg rect ?_
  funext i
  obtain ⟨p, q, rfl⟩ : ∃ (p : Fin 5000) (q : Fin 64), i = ix2 p q := ⟨i 0, i 1, eq_ix2 i⟩
  exact congrArg (mm a wl (ix2 p q) + mm x wr (ix2 p q) + ·) (broadcastTo_1b_ab_apply b broadcasts_S1x64_S5000x64 p q)

/-- Row p' of the layer of two blocks whose rows p' are rows p of the arrays is row p of the layer of the arrays. -/
theorem layerBlk_rows {n n' k h : Nat} (a x : Mat n k) (a' x' : Mat n' k) (wl wr : Mat k h) (b : Mat 1 h)
    (p' : Fin n') (p : Fin n) (ha : ∀ j, a' (ix2 p' j) = a (ix2 p j)) (hx : ∀ j, x' (ix2 p' j) = x (ix2 p j)) (q : Fin h) :
    layerBlk a' x' wl wr b (ix2 p' q) = layerBlk a x wl wr b (ix2 p q) := by
  show max ((∑ j : Fin k, a' (ix2 p' j) * wl (ix2 j q) + ∑ j : Fin k, x' (ix2 p' j) * wr (ix2 j q)) + b (ix2 (0 : Fin 1) q)) _
    = max ((∑ j : Fin k, a (ix2 p j) * wl (ix2 j q) + ∑ j : Fin k, x (ix2 p j) * wr (ix2 j q)) + b (ix2 (0 : Fin 1) q)) _
  simp only [ha, hx]

/-- The printed index maps, decided over the grid: the two row-blocked inputs and the output sit at block (t, 0),
    the weights and the bias at block (0, 0). -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the aggregated features' block at point t is row 5000 t + p of the array. -/
theorem aggBlock_row (V : (c : Dev nD) → (b : Ref sig .tc) → Buf (Elt Ideal) ((c : Thread nD τ).loc b)) (c : Dev nD) (t : Fin cfg2.N) (p : Fin 5000) (j : Fin 64)
    (r : Fin 100000) (hr : r.val = t.val * 5000 + p.val) :
    (iblk2 V c 0 t : Vec Ideal S5000x64 .f32) (ix2 p j) = (V c main_v49 : S100000x64.Idx → EReal) (ix2 r j) := by
  obtain ⟨e0, e1, -⟩ := blockIndex t
  show V c main_v49 (((cfg2.win 0).blk t).view.emb (ix2 p j)) = _
  refine congrArg (V c main_v49) ?_
  funext a; apply Fin.ext
  match a with
  | ⟨0, _⟩ => show win2_0.index t (0 : Fin 2) * 5000 + 1 * p.val = r.val; omega
  | ⟨1, _⟩ => show win2_0.index t (1 : Fin 2) * 64 + 1 * j.val = j.val; omega

/-- Row p of the nodes' own features' block at point t is row 5000 t + p of the array. -/
theorem ownBlock_row (V : (c : Dev nD) → (b : Ref sig .tc) → Buf (Elt Ideal) ((c : Thread nD τ).loc b)) (c : Dev nD) (t : Fin cfg2.N) (p : Fin 5000) (j : Fin 64)
    (r : Fin 100000) (hr : r.val = t.val * 5000 + p.val) :
    (iblk2 V c 1 t : Vec Ideal S5000x64 .f32) (ix2 p j) = (V c main_v39 : S100000x64.Idx → EReal) (ix2 r j) := by
  obtain ⟨-, -, e0, e1, -⟩ := blockIndex t
  show V c main_v39 (((cfg2.win 1).blk t).view.emb (ix2 p j)) = _
  refine congrArg (V c main_v39) ?_
  funext a; apply Fin.ext
  match a with
  | ⟨0, _⟩ => show win2_1.index t (0 : Fin 2) * 5000 + 1 * p.val = r.val; omega
  | ⟨1, _⟩ => show win2_1.index t (1 : Fin 2) * 64 + 1 * j.val = j.val; omega

/-- The first weight's block at every point is the whole slab. -/
theorem relBlock (V : (c : Dev nD) → (b : Ref sig .tc) → Buf (Elt Ideal) ((c : Thread nD τ).loc b)) (c : Dev nD) (t : Fin cfg2.N) : (iblk2 V c 2 t : Vec Ideal S64x64 .f32) = V c main_v54 := by
  obtain ⟨-, -, -, -, e0, e1, -⟩ := blockIndex t
  refine funext fun (y : S64x64.Idx) => ?_
  show V c main_v54 (((cfg2.win 2).blk t).view.emb y) = V c main_v54 y
  refine congrArg (V c main_v54) ?_
  funext a; apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The bias row's block at every point is the whole row. -/
theorem biasBlock (V : (c : Dev nD) → (b : Ref sig .tc) → Buf (Elt Ideal) ((c : Thread nD τ).loc b)) (c : Dev nD) (t : Fin cfg2.N) : (iblk2 V c 3 t : Vec Ideal S1x64 .f32) = V c main_v52 := by
  obtain ⟨-, -, -, -, -, -, e0, e1, -⟩ := blockIndex t
  refine funext fun (y : S1x64.Idx) => ?_
  show V c main_v52 (((cfg2.win 3).blk t).view.emb y) = V c main_v52 y
  refine congrArg (V c main_v52) ?_
  funext a; apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The second weight's block at every point is the whole slab. -/
theorem rootBlock (V : (c : Dev nD) → (b : Ref sig .tc) → Buf (Elt Ideal) ((c : Thread nD τ).loc b)) (c : Dev nD) (t : Fin cfg2.N) : (iblk2 V c 4 t : Vec Ideal S64x64 .f32) = V c main_v56 := by
  obtain ⟨-, -, -, -, -, -, -, -, e0, e1, -⟩ := blockIndex t
  refine funext fun (y : S64x64.Idx) => ?_
  show V c main_v56 (((cfg2.win 4).blk t).view.emb y) = V c main_v56 y
  refine congrArg (V c main_v56) ?_
  funext a; apply Fin.ext
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- What point t writes back is block t of the layer of the whole arrays. -/
theorem flushed_eq (V : (c : Dev nD) → (b : Ref sig .tc) → Buf (Elt Ideal) ((c : Thread nD τ).loc b)) (c : Dev nD) (t : Fin cfg2.N) :
    (dat2 (F := Ideal) V c).flushed 5 t
      = ((cfg2.win 5).blk t).view.read (Elt Ideal)
          (layerBlk (n := 100000) (k := 64) (h := 64) (V c main_v49) (V c main_v39) (V c main_v54) (V c main_v56) (V c main_v52)) := by
  show (cfg2.win 5).cut (grid2.coords t) ((dat2 V c).after 5 t) = _
  rw [after2_5]
  unfold out2_5
  rw [View.canon_unit_zero zeroOffsets]
  simp only [View.ld_unit_zero (S := S5000x64) zeroOffsets, View.ld_unit_zero (S := S64x64) zeroOffsets,
    View.ld_unit_zero (S := S1x64) zeroOffsets]
  rw [pay, relBlock, biasBlock, rootBlock]
  have hN : cfg2.N = 20 := N_2
  have ht : t.val < cfg2.N := t.isLt
  obtain ⟨-, -, -, -, -, -, -, -, -, -, e0, e1⟩ := blockIndex t
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hemb : ((cfg2.win 5).blk t).view.emb (ix2 p q) = ix2 (⟨t.val * 5000 + p.val, by omega⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 64 + 1 * q.val = q.val; omega
  show layerBlk (n := 5000) (k := 64) (h := 64) (iblk2 V c 0 t) (iblk2 V c 1 t) (V c main_v54) (V c main_v56) (V c main_v52) (ix2 p q)
    = layerBlk (n := 100000) (k := 64) (h := 64) (V c main_v49) (V c main_v39) (V c main_v54) (V c main_v56) (V c main_v52)
        (((cfg2.win 5).blk t).view.emb (ix2 p q))
  rw [hemb]
  exact layerBlk_rows _ _ _ _ _ _ _ p _ (fun j => aggBlock_row V c t p j _ rfl) (fun j => ownBlock_row V c t p j _ rfl) q

/-- An index of the array is in point t's block iff each coordinate is in the block's range on its axis. -/
theorem mem_blk (t : Fin cfg2.N) (i : S100000x64.Idx) :
    i ∈ ((cfg2.win 5).blk t).view.set
      ↔ ∀ a : Fin 2, win2_5.index t a * S5000x64.size a ≤ (i a).val ∧ (i a).val < win2_5.index t a * S5000x64.size a + S5000x64.size a := by
  show i ∈ ((View.whole main_v57).slice (win2_5.rect t)).set ↔ _
  rw [View.set_slice_whole, Rect.mem_set_unit]
  exact Iff.rfl

/-- Every row of the array is in the block of the point its row index divided by 5000 names. -/
theorem cover (i : S100000x64.Idx) : ∃ t : Fin cfg2.N, (cfg2.win 5).flush t = true ∧ i ∈ ((cfg2.win 5).blk t).view.set := by
  have hN : cfg2.N = 20 := N_2
  have hi0 : (i 0).val < 100000 := (i 0).isLt
  have hi1 : (i 1).val < 64 := (i 1).isLt
  refine ⟨⟨(i 0).val / 5000, by omega⟩, flush2_5 _, ?_⟩
  rw [mem_blk]
  obtain ⟨-, -, -, -, -, -, -, -, -, -, e0, e1⟩ := blockIndex ⟨(i 0).val / 5000, by omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 64 ≤ (i 1).val ∧ (i 1).val < win2_5.index _ (1 : Fin 2) * 64 + 64
    rw [e1]; omega

end Layer2

open Layer2 in
/-- After the region the output array holds the layer of the arrays the region found. -/
theorem arr2 (V : (c : Dev nD) → (b : Ref sig .tc) → Buf (Elt Ideal) ((c : Thread nD τ).loc b)) (c : Dev nD) :
    (dat2 (F := Ideal) V c).arrAt 5 cfg2.N
      = Cert.Net.layerBlk (n := 100000) (k := 64) (h := 64) (V c main_v49) (V c main_v39) (V c main_v54) (V c main_v56) (V c main_v52) :=
  (dat2 (F := Ideal) V c).arrAt_eq_of_cover 5 _ (fun t _ => flushed_eq V c t) cover

end Cert.KernelIdeal.Regions

end
-- ==== Proof.Region3.lean ====
/-
  The fourth graph-convolution layer's dense part, computed block by block, is the layer of the whole arrays.

  The grid has 20 points. Point t reads rows 5000 t … 5000 t + 4999 of the aggregated features a [100000, 64] and of
  the nodes' own features x [100000, 64], the whole weights wl, wr [64, 64] and the whole bias row b [1, 64], and
  writes rows 5000 t … 5000 t + 4999 of the output. What it writes is, entry (p, q) of the block,

      max ( Σ_j a(5000 t + p, j) · wl(j, q)  +  Σ_j x(5000 t + p, j) · wr(j, q)  +  b(0, q) ,  0 ),

  because a row of the layer depends on the same row of a and of x only. Every row r of the output lies in the block
  of point r / 5000, so after the last point the output array is the layer formula of the arrays as the first point
  found them.
-/
import proofs.«162606_j46273977647663_1_alg».proof.Proof.Gen.KernelIdeal.Frame
import proofs.«162606_j46273977647663_1_alg».proof.Proof.Net

noncomputable section

namespace Cert.KernelIdeal.Regions

open Idealize.ShloMosaic Idealize.ShloMosaic.TcCoe Idealize.SL.Sem Cert.KernelIdeal Cert.KernelIdeal.Gen
open Idealize.ShloMosaic.ValueIdx Cert.Layers Cert.Net

namespace Layer3

/-- The zero offsets of a whole-block access, however they are spelt. -/
theorem zeroOffsets : (![0, 0] : Fin 2 → Nat) = fun _ => 0 := funext fun a => by fin_cases a <;> rfl

/-- One grid point's stored value is the layer formula of its five loaded blocks. -/
theorem pay (a x : Vec Ideal S5000x64 .f32) (wl wr : Vec Ideal S64x64 .f32) (b : Vec Ideal S1x64 .f32) :
    k3_pay1 a x wl wr b = layerBlk (n := 5000) (k := 64) (h := 64) a x wl wr b := by
  unfold k3_pay1
  dsimp only
  rw [shapeCast_self, shapeCast_self, shapeCast_self, shapeCast_self, shapeCast_self]
  rw [tileRect_eq]
  rw [tileMm_eq dot_S5000x64_S64x64_S5000x64_1_0_0_1_n_n dot_S5000x64_S64x64_S5000x64_1_0_0_1_n_n_wf rfl _ wl bitsLt_bf16_f32,
    tileMm_eq dot_S5000x64_S64x64_S5000x64_1_0_0_1_n_n dot_S5000x64_S64x64_S5000x64_1_0_0_1_n_n_wf rfl _ wr bitsLt_bf16_f32]
  unfold layerBlk
  refine congrArg rect ?_
  funext i
  obtain ⟨p, q, rfl⟩ : ∃ (p : Fin 5000) (q : Fin 64), i = ix2 p q := ⟨i 0, i 1, eq_ix2 i⟩
  exact congrArg (mm a wl (ix2 p q) + mm x wr (ix2 p q) + ·) (broadcastTo_1b_ab_apply b broadcasts_S1x64_S5000x64 p q)

/-- Row p' of the layer of two blocks whose rows p' are rows p of the arrays is row p of the layer of the arrays. -/
theorem layerBlk_rows {n n' k h : Nat} (a x : Mat n k) (a' x' : Mat n' k) (wl wr : Mat k h) (b : Mat 1 h)
    (p' : Fin n') (p : Fin n) (ha : ∀ j, a' (ix2 p' j) = a (ix2 p j)) (hx : ∀ j, x' (ix2 p' j) = x (ix2 p j)) (q : Fin h) :
    layerBlk a' x' wl wr b (ix2 p' q) = layerBlk a x wl wr b (ix2 p q) := by
  show max ((∑ j : Fin k, a' (ix2 p' j) * wl (ix2 j q) + ∑ j : Fin k, x' (ix2 p' j) * wr (ix2 j q)) + b (ix2 (0 : Fin 1) q)) _
    = max ((∑ j : Fin k, a (ix2 p j) * wl (ix2 j q) + ∑ j : Fin k, x (ix2 p j) * wr (ix2 j q)) + b (ix2 (0 : Fin 1) q)) _
  simp only [ha, hx]

/-- The printed index maps, decided over the grid: the two row-blocked inputs and the output sit at block (t, 0),
    the weights and the bias at block (0, 0). -/
theorem blockIndex : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of the aggregated features' block at point t is row 5000 t + p of the array. -/
theorem aggBlock_row (V : (c : Dev nD) → (b : Ref sig .tc) → Buf (Elt Ideal) ((c : Thread nD τ).loc b)) (c : Dev nD) (t : Fin cfg3.N) (p : Fin 5000) (j : Fin 64)
    (r : Fin 100000) (hr : r.val = t.val * 5000 + p.val) :
    (iblk3 V c 0 t : Vec Ideal S5000x64 .f32) (ix2 p j) = (V c main_v67 : S100000x64.Idx → EReal) (ix2 r j) := by
  obtain ⟨e0, e1, -⟩ := blockIndex t
  show V c main_v67 (((cfg3.win 0).blk t).view.emb (ix2 p j)) = _
  refine congrArg (V c main_v67) ?_
  funext a; apply Fin.ext
  match a with
  | ⟨0, _⟩ => show win3_0.index t (0 : Fin 2) * 5000 + 1 * p.val = r.val; omega
  | ⟨1, _⟩ => show win3_0.index t (1 : Fin 2) * 64 + 1 * j.val = j.val; omega

/-- Row p of the nodes' own features' block at point t is row 5000 t + p of the array. -/
theorem ownBlock_row (V : (c : Dev nD) → (b : Ref sig .tc) → Buf (Elt Ideal) ((c : Thread nD τ).loc b)) (c : Dev nD) (t : Fin cfg3.N) (p : Fin 5000) (j : Fin 64)
    (r : Fin 100000) (hr : r.val = t.val * 5000 + p.val) :
    (iblk3 V c 1 t : Vec Ideal S5000x64 .f32) (ix2 p j) = (V c main_v57 : S100000x64.Idx → EReal) (ix2 r j) := by
  obtain ⟨-, -, e0, e1, -⟩ := blockIndex t
  show V c main_v57 (((cfg3.win 1).blk t).view.emb (ix2 p j)) = _
  refine congrArg (V c main_v57) ?_
  funext a; apply Fin.ext
  match a with
  | ⟨0, _⟩ => show win3_1.index t (0 : Fin 2) * 5000 + 1 * p.val = r.val; omega
  | ⟨1, _⟩ => show win3_1.index t (1 : Fin 2) * 64 + 1 * j.val = j.val; omega

/-- The first weight's block at every point is the whole slab. -/
theorem relBlock (V : (c : Dev nD) → (b : Ref sig .tc) → Buf (Elt Ideal) ((c : Thread nD τ).loc b)) (c : Dev nD) (t : Fin cfg3.N) : (iblk3 V c 2 t : Vec Ideal S64x64 .f32) = V c main_v72 := by
  obtain ⟨-, -, -, -, e0, e1, -⟩ := blockIndex t
  refine funext fun (y : S64x64.Idx) => ?_
  show V c main_v72 (((cfg3.win 2).blk t).view.emb y) = V c main_v72 y
  refine congrArg (V c main_v72) ?_
  funext a; apply Fin.ext
  match a with
  | ⟨0, _⟩ => show win3_2.index t (0 : Fin 2) * 64 + 1 * (y 0).val = (y 0).val; omega
  | ⟨1, _⟩ => show win3_2.index t (1 : Fin 2) * 64 + 1 * (y 1).val = (y 1).val; omega

/-- The bias row's block at every point is the whole row. -/
theorem biasBlock (V : (c : Dev nD) → (b : Ref sig .tc) → Buf (Elt Ideal) ((c : Thread nD τ).loc b)) (c : Dev nD) (t : Fin cfg3.N) : (iblk3 V c 3 t : Vec Ideal S1x64 .f32) = V c main_v70 := by
  obtain ⟨-, -, -, -, -, -, e0, e1, -⟩ := blockIndex t
  refine funext fun (y : S1x64.Idx) => ?_
  show V c main_v70 (((cfg3.win 3).blk t).view.emb y) = V c main_v70 y
  refine congrArg (V c main_v70) ?_
  funext a; apply Fin.ext
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- The second weight's block at every point is the whole slab. -/
theorem rootBlock (V : (c : Dev nD) → (b : Ref sig .tc) → Buf (Elt Ideal) ((c : Thread nD τ).loc b)) (c : Dev nD) (t : Fin cfg3.N) : (iblk3 V c 4 t : Vec Ideal S64x64 .f32) = V c main_v74 := by
  obtain ⟨-, -, -, -, -, -, -, -, e0, e1, -⟩ := blockIndex t
  refine funext fun (y : S64x64.Idx) => ?_
  show V c main_v74 (((cfg3.win 4).blk t).view.emb y) = V c main_v74 y
  refine congrArg (V c main_v74) ?_
  funext a; apply Fin.ext
  match a with
  | ⟨0, _⟩ => show win3_4.index t (0 : Fin 2) * 64 + 1 * (y 0).val = (y 0).val; omega
  | ⟨1, _⟩ => show win3_4.index t (1 : Fin 2) * 64 + 1 * (y 1).val = (y 1).val; omega

/-- What point t writes back is block t of the layer of the whole arrays. -/
theorem flushed_eq (V : (c : Dev nD) → (b : Ref sig .tc) → Buf (Elt Ideal) ((c : Thread nD τ).loc b)) (c : Dev nD) (t : Fin cfg3.N) :
    (dat3 (F := Ideal) V c).flushed 5 t
      = ((cfg3.win 5).blk t).view.read (Elt Ideal)
          (layerBlk (n := 100000) (k := 64) (h := 64) (V c main_v67) (V c main_v57) (V c main_v72) (V c main_v74) (V c main_v70)) := by
  show (cfg3.win 5).cut (grid3.coords t) ((dat3 V c).after 5 t) = _
  rw [after3_5]
  unfold out3_5
  rw [View.canon_unit_zero zeroOffsets]
  simp only [View.ld_unit_zero (S := S5000x64) zeroOffsets, View.ld_unit_zero (S := S64x64) zeroOffsets,
    View.ld_unit_zero (S := S1x64) zeroOffsets]
  rw [pay, relBlock, biasBlock, rootBlock]
  have hN : cfg3.N = 20 := N_3
  have ht : t.val < cfg3.N := t.isLt
  obtain ⟨-, -, -, -, -, -, -, -, -, -, e0, e1⟩ := blockIndex t
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hemb : ((cfg3.win 5).blk t).view.emb (ix2 p q) = ix2 (⟨t.val * 5000 + p.val, by omega⟩ : Fin 100000) q := by
    funext a; apply Fin.ext
    match a with
    | ⟨0, _⟩ => show win3_5.index t (0 : Fin 2) * 5000 + 1 * p.val = t.val * 5000 + p.val; omega
    | ⟨1, _⟩ => show win3_5.index t (1 : Fin 2) * 64 + 1 * q.val = q.val; omega
  show layerBlk (n := 5000) (k := 64) (h := 64) (iblk3 V c 0 t) (iblk3 V c 1 t) (V c main_v72) (V c main_v74) (V c main_v70) (ix2 p q)
    = layerBlk (n := 100000) (k := 64) (h := 64) (V c main_v67) (V c main_v57) (V c main_v72) (V c main_v74) (V c main_v70)
        (((cfg3.win 5).blk t).view.emb (ix2 p q))
  rw [hemb]
  exact layerBlk_rows _ _ _ _ _ _ _ p _ (fun j => aggBlock_row V c t p j _ rfl) (fun j => ownBlock_row V c t p j _ rfl) q

/-- An index of the array is in point t's block iff each coordinate is in the block's range on its axis. -/
theorem mem_blk (t : Fin cfg3.N) (i : S100000x64.Idx) :
    i ∈ ((cfg3.win 5).blk t).view.set
      ↔ ∀ a : Fin 2, win3_5.index t a * S5000x64.size a ≤ (i a).val ∧ (i a).val < win3_5.index t a * S5000x64.size a + S5000x64.size a := by
  show i ∈ ((View.whole main_v75).slice (win3_5.rect t)).set ↔ _
  rw [View.set_slice_whole, Rect.mem_set_unit]
  exact Iff.rfl

/-- Every row of the array is in the block of the point its row index divided by 5000 names. -/
theorem cover (i : S100000x64.Idx) : ∃ t : Fin cfg3.N, (cfg3.win 5).flush t = true ∧ i ∈ ((cfg3.win 5).blk t).view.set := by
  have hN : cfg3.N = 20 := N_3
  have hi0 : (i 0).val < 100000 := (i 0).isLt
  have hi1 : (i 1).val < 64 := (i 1).isLt
  refine ⟨⟨(i 0).val / 5000, by omega⟩, flush3_5 _, ?_⟩
  rw [mem_blk]
  obtain ⟨-, -, -, -, -, -, -, -, -, -, e0, e1⟩ := blockIndex ⟨(i 0).val / 5000, by omega⟩
  intro a
  match a with
  | ⟨0, _⟩ =>
    show win3_5.index _ (0 : Fin 2) * 5000 ≤ (i 0).val ∧ (i 0).val < win3_5.index _ (0 : Fin 2) * 5000 + 5000
    rw [e0]; show (i 0).val / 5000 * 5000 ≤ (i 0).val ∧ (i 0).val < (i 0).val / 5000 * 5000 + 5000; omega
  | ⟨1, _⟩ =>
    show win3_5.index _ (1 : Fin 2) * 64 ≤ (i 1).val ∧ (i 1).val < win3_5.index _ (1 : Fin 2) * 64 + 64
    rw [e1]; omega

end Layer3

open Layer3 in
/-- After the region the output array holds the layer of the arrays the region found. -/
theorem arr3 (V : (c : Dev nD) → (b : Ref sig .tc) → Buf (Elt Ideal) ((c : Thread nD τ).loc b)) (c : Dev nD) :
    (dat3 (F := Ideal) V c).arrAt 5 cfg3.N
      = Cert.Net.layerBlk (n := 100000) (k := 64) (h := 64) (V c main_v67) (V c main_v57) (V c main_v72) (V c main_v74) (V c main_v70) :=
  (dat3 (F := Ideal) V c).arrAt_eq_of_cover 5 _ (fun t _ => flushed_eq V c t) cover

end Cert.KernelIdeal.Regions

end
-- ==== Proof.Region4.lean ====
/-
  The classifier, computed by one grid point on whole arrays, is the classifier formula of those arrays.

  The grid has one point. It reads the pooled features g [1024, 64], the weights w1 [64, 64], w2 [64, 16] and the bias
  rows b1 [1, 64], b2 [1, 16] whole, and writes the whole output [1024, 16]: entry (p, q) is

      Σ_k max ( Σ_j g(p, j) · w1(j, k) + b1(0, k) , 0 ) · w2(k, q)  +  b2(0, q).

  Every window's block is its whole array, so after the point the output array is that formula of the arrays as the
  point found them.
-/
import proofs.«162606_j46273977647663_1_alg».proof.Proof.Gen.KernelIdeal.Frame
import proofs.«162606_j46273977647663_1_alg».proof.Proof.Net

noncomputable section

namespace Cert.KernelIdeal.Regions

open Idealize.ShloMosaic Idealize.ShloMosaic.TcCoe Idealize.SL.Sem Cert.KernelIdeal Cert.KernelIdeal.Gen
open Idealize.ShloMosaic.ValueIdx Cert.Layers Cert.Net

namespace Head

/-- The zero offsets of a whole-block access, however they are spelt. -/
theorem zeroOffsets : (![0, 0] : Fin 2 → Nat) = fun _ => 0 := funext fun a => by fin_cases a <;> rfl

/-- A one-row block repeated down m rows reads, at every entry, the row's entry in that column. -/
theorem rowsOf_eq {α : Type} {m n : Nat} (b : (⟨2, ![1, n]⟩ : Shape).Idx → α)
    (hb : (⟨2, ![1, n]⟩ : Shape).Broadcasts ⟨2, ![m, n]⟩) :
    broadcastTo ⟨2, ![m, n]⟩ b hb = fun i => b (ix2 (0 : Fin 1) (i 1)) := by
  funext i
  obtain ⟨p, q, rfl⟩ : ∃ (p : Fin m) (q : Fin n), i = ix2 p q := ⟨i 0, i 1, eq_ix2 i⟩
  exact broadcastTo_1b_ab_apply b hb p q

/-- The grid point's stored value is the classifier formula of its five loaded blocks. -/
theorem pay (x : Vec Ideal S1024x64 .f32) (w1 : Vec Ideal S64x64 .f32) (b1 : Vec Ideal S1x64 .f32)
    (w2 : Vec Ideal S64x16 .f32) (b2 : Vec Ideal S1x16 .f32) :
    k4_pay1 x w1 b1 w2 b2 = headBlk (g := 1024) (k := 64) (h := 64) (o := 16) x w1 b1 w2 b2 := by
  unfold k4_pay1
  dsimp only
  rw [shapeCast_self, shapeCast_self, shapeCast_self]
  rw [tileMm_eq dot_S1024x64_S64x16_S1024x16_1_0_0_1_n_n dot_S1024x64_S64x16_S1024x16_1_0_0_1_n_n_wf rfl _ w2 bitsLt_bf16_f32]
  rw [tileRect_eq]
  rw [tileMm_eq dot_S1024x64_S64x64_S1024x64_1_0_0_1_n_n dot_S1024x64_S64x64_S1024x64_1_0_0_1_n_n_wf rfl _ w1 bitsLt_bf16_f32]
  rw [rowsOf_eq b1 broadcasts_S1x64_S1024x64, rowsOf_eq b2 broadcasts_S1x16_S1024x16]
  rfl

/-- The printed index maps, decided over the grid: every window sits at block (0, 0). -/
theorem blockIndex : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The pooled features' block is the whole array. -/
theorem pooledBlock (V : (c : Dev nD) → (b : Ref sig .tc) → Buf (Elt Ideal) ((c : Thread nD τ).loc b)) (c : Dev nD) (t : Fin cfg4.N) : (iblk4 V c 0 t : Vec Ideal S1024x64 .f32) = V c main_v78 := by
  obtain ⟨e0, e1, -⟩ := blockIndex t
  refine funext fun (y : S1024x64.Idx) => ?_
  show V c main_v78 (((cfg4.win 0).blk t).view.emb y) = V c main_v78 y
  refine congrArg (V c main_v78) ?_
  funext a; apply Fin.ext
  match a with
  | ⟨0, _⟩ => show win4_0.index t (0 : Fin 2) * 1024 + 1 * (y 0).val = (y 0).val; omega
  | ⟨1, _⟩ => show win4_0.index t (1 : Fin 2) * 64 + 1 * (y 1).val = (y 1).val; omega

/-- The first weight's block is the whole array. -/
theorem hiddenWeightBlock (V : (c : Dev nD) → (b : Ref sig .tc) → Buf (Elt Ideal) ((c : Thread nD τ).loc b)) (c : Dev nD) (t : Fin cfg4.N) : (iblk4 V c 1 t : Vec Ideal S64x64 .f32) = V c main_arg6 := by
  obtain ⟨-, -, e0, e1, -⟩ := blockIndex t
  refine funext fun (y : S64x64.Idx) => ?_
  show V c main_arg6 (((cfg4.win 1).blk t).view.emb y) = V c main_arg6 y
  refine congrArg (V c main_arg6) ?_
  funext a; apply Fin.ext
  match a with
  | ⟨0, _⟩ => show win4_1.index t (0 : Fin 2) * 64 + 1 * (y 0).val = (y 0).val; omega
  | ⟨1, _⟩ => show win4_1.index t (1 : Fin 2) * 64 + 1 * (y 1).val = (y 1).val; omega

/-- The first bias row's block is the whole row. -/
theorem hiddenBiasBlock (V : (c : Dev nD) → (b : Ref sig .tc) → Buf (Elt Ideal) ((c : Thread nD τ).loc b)) (c : Dev nD) (t : Fin cfg4.N) : (iblk4 V c 2 t : Vec Ideal S1x64 .f32) = V c main_v79 := by
  obtain ⟨-, -, -, -, e0, e1, -⟩ := blockIndex t
  refine funext fun (y : S1x64.Idx) => ?_
  show V c main_v79 (((cfg4.win 2).blk t).view.emb y) = V c main_v79 y
  refine congrArg (V c main_v79) ?_
  funext a; apply Fin.ext
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- The second weight's block is the whole array. -/
theorem outWeightBlock (V : (c : Dev nD) → (b : Ref sig .tc) → Buf (Elt Ideal) ((c : Thread nD τ).loc b)) (c : Dev nD) (t : Fin cfg4.N) : (iblk4 V c 3 t : Vec Ideal S64x16 .f32) = V c main_arg8 := by
  obtain ⟨-, -, -, -, -, -, e0, e1, -⟩ := blockIndex t
  refine funext fun (y : S64x16.Idx) => ?_
  show V c main_arg8 (((cfg4.win 3).blk t).view.emb y) = V c main_arg8 y
  refine congrArg (V c main_arg8) ?_
  funext a; apply Fin.ext
  match a with
  | ⟨0, _⟩ => show win4_3.index t (0 : Fin 2) * 64 + 1 * (y 0).val = (y 0).val; omega
  | ⟨1, _⟩ => show win4_3.index t (1 : Fin 2) * 16 + 1 * (y 1).val = (y 1).val; omega

/-- The second bias row's block is the whole row. -/
theorem outBiasBlock (V : (c : Dev nD) → (b : Ref sig .tc) → Buf (Elt Ideal) ((c : Thread nD τ).loc b)) (c : Dev nD) (t : Fin cfg4.N) : (iblk4 V c 4 t : Vec Ideal S1x16 .f32) = V c main_v80 := by
  obtain ⟨-, -, -, -, -, -, -, -, e0, e1, -⟩ := blockIndex t
  refine funext fun (y : S1x16.Idx) => ?_
  show V c main_v80 (((cfg4.win 4).blk t).view.emb y) = V c main_v80 y
  refine congrArg (V c main_v80) ?_
  funext a; apply Fin.ext
  match a with
  | ⟨0, _⟩ => show win4_4.index t (0 : Fin 2) * 1 + 1 * (y 0).val = (y 0).val; omega
  | ⟨1, _⟩ => show win4_4.index t (1 : Fin 2) * 16 + 1 * (y 1).val = (y 1).val; omega

/-- What the point writes back is its block — all — of the classifier of the whole arrays. -/
theorem flushed_eq (V : (c : Dev nD) → (b : Ref sig .tc) → Buf (Elt Ideal) ((c : Thread nD τ).loc b)) (c : Dev nD) (t : Fin cfg4.N) :
    (dat4 (F := Ideal) V c).flushed 5 t
      = ((cfg4.win 5).blk t).view.read (Elt Ideal)
          (headBlk (g := 1024) (k := 64) (h := 64) (o := 16) (V c main_v78) (V c main_arg6) (V c main_v79) (V c main_arg8) (V c main_v80)) := by
  show (cfg4.win 5).cut (grid4.coords t) ((dat4 V c).after 5 t) = _
  rw [after4_5]
  unfold out4_5
  rw [View.canon_unit_zero zeroOffsets]
  simp only [View.ld_unit_zero (S := S1024x64) zeroOffsets, View.ld_unit_zero (S := S64x64) zeroOffsets,
    View.ld_unit_zero (S := S1x64) zeroOffsets, View.ld_unit_zero (S := S64x16) zeroOffsets,
    View.ld_unit_zero (S := S1x16) zeroOffsets]
  rw [pay, pooledBlock, hiddenWeightBlock, hiddenBiasBlock, outWeightBlock, outBiasBlock]
  obtain ⟨-, -, -, -, -, -, -, -, -, -, e0, e1⟩ := blockIndex t
  refine funext fun (j : S1024x16.Idx) => ?_
  show headBlk (g := 1024) (k := 64) (h := 64) (o := 16) (V c main_v78) (V c main_arg6) (V c main_v79) (V c main_arg8) (V c main_v80) j
    = headBlk (g := 1024) (k := 64) (h := 64) (o := 16) (V c main_v78) (V c main_arg6) (V c main_v79) (V c main_arg8) (V c main_v80)
        (((cfg4.win 5).blk t).view.emb j)
  refine congrArg (headBlk (g := 1024) (k := 64) (h := 64) (o := 16) (V c main_v78) (V c main_arg6) (V c main_v79) (V c main_arg8) (V c main_v80)) ?_
  funext a; apply Fin.ext
  match a with
  | ⟨0, _⟩ => show (j 0).val = win4_5.index t (0 : Fin 2) * 1024 + 1 * (j 0).val; omega
  | ⟨1, _⟩ => show (j 1).val = win4_5.index t (1 : Fin 2) * 16 + 1 * (j 1).val; omega

/-- An index of the array is in point t's block iff each coordinate is in the block's range on its axis. -/
theorem mem_blk (t : Fin cfg4.N) (i : S1024x16.Idx) :
    i ∈ ((cfg4.win 5).blk t).view.set
      ↔ ∀ a : Fin 2, win4_5.index t a * S1024x16.size a ≤ (i a).val ∧ (i a).val < win4_5.index t a * S1024x16.size a + S1024x16.size a := by
  show i ∈ ((View.whole main_v81).slice (win4_5.rect t)).set ↔ _
  rw [View.set_slice_whole, Rect.mem_set_unit]
  exact Iff.rfl

/-- Every entry of the array is in the one point's block. -/
theorem cover (i : S1024x16.Idx) : ∃ t : Fin cfg4.N, (cfg4.win 5).flush t = true ∧ i ∈ ((cfg4.win 5).blk t).view.set := by
  have hN : cfg4.N = 1 := N_4
  have hi0 : (i 0).val < 1024 := (i 0).isLt
  have hi1 : (i 1).val < 16 := (i 1).isLt
  refine ⟨⟨0, by omega⟩, flush4_5 _, ?_⟩
  rw [mem_blk]
  obtain ⟨-, -, -, -, -, -, -, -, -, -, e0, e1⟩ := blockIndex ⟨0, by omega⟩
  intro a
  match a with
  | ⟨0, _⟩ =>
    show win4_5.index _ (0 : Fin 2) * 1024 ≤ (i 0).val ∧ (i 0).val < win4_5.index _ (0 : Fin 2) * 1024 + 1024
    rw [e0]; omega
  | ⟨1, _⟩ =>
    show win4_5.index _ (1 : Fin 2) * 16 ≤ (i 1).val ∧ (i 1).val < win4_5.index _ (1 : Fin 2) * 16 + 16
    rw [e1]; omega

end Head

open Head in
/-- After the region the output array holds the classifier of the arrays the region found. -/
theorem arr4 (V : (c : Dev nD) → (b : Ref sig .tc) → Buf (Elt Ideal) ((c : Thread nD τ).loc b)) (c : Dev nD) :
    (dat4 (F := Ideal) V c).arrAt 5 cfg4.N
      = Cert.Net.headBlk (g := 1024) (k := 64) (h := 64) (o := 16) (V c main_v78) (V c main_arg6) (V c main_v79) (V c main_arg8) (V c main_v80) :=
  (dat4 (F := Ideal) V c).arrAt_eq_of_cover 5 _ (fun t _ => flushed_eq V c t) cover

end Cert.KernelIdeal.Regions

end
-- ==== Proof.KernelNet.lean ====
/-
  The kernel program's result buffer, read back through its ten segments, is the network function of the argument
  arrays.

  The contents at each boundary are a fold from the launch memory: a stretch of host operations maps them by the
  operations' functions, a kernel region replaces its output array by what its grid's write-backs leave and keeps
  every other buffer. Walking forward: the first stretch cuts the edge rows and aggregates the input; each layer's
  region leaves, block by block, max(agg · Wrel + h · Wroot + brel, 0) of the arrays it found (its bias arriving as a
  one-row block, which is the bias vector laid out as a row); the next stretch aggregates that output over the same
  edge rows; the last stretch sums the node rows per graph; the classifier's region leaves max(g · W1 + b1, 0) · W2 + b2.
  No buffer a later stage reads is written in between (Carried).
-/
import proofs.«162606_j46273977647663_1_alg».proof.Proof.Gen.KernelIdeal.Frame
import proofs.«162606_j46273977647663_1_alg».proof.Proof.Net
import proofs.«162606_j46273977647663_1_alg».proof.Proof.Carry
import proofs.«162606_j46273977647663_1_alg».proof.Proof.Stretch0
import proofs.«162606_j46273977647663_1_alg».proof.Proof.Stretch1
import proofs.«162606_j46273977647663_1_alg».proof.Proof.Stretch2
import proofs.«162606_j46273977647663_1_alg».proof.Proof.Stretch3
import proofs.«162606_j46273977647663_1_alg».proof.Proof.Stretch4
import proofs.«162606_j46273977647663_1_alg».proof.Proof.Region0
import proofs.«162606_j46273977647663_1_alg».proof.Proof.Region1
import proofs.«162606_j46273977647663_1_alg».proof.Proof.Region2
import proofs.«162606_j46273977647663_1_alg».proof.Proof.Region3
import proofs.«162606_j46273977647663_1_alg».proof.Proof.Region4

noncomputable section

namespace Cert.KernelIdeal.NetValue

open Idealize.ShloMosaic Idealize.ShloMosaic.TcCoe Idealize.SL.Sem Idealize.ShloMosaic.StableHlo
open Cert.KernelIdeal Cert.KernelIdeal.Gen Cert.KernelIdeal.Carry

variable (m : (ℓ : Loc nD τ sig) → Buf (Elt Ideal) ℓ) (ρ : Dev nD → PrngReg)

/-- The first stretch's exit contents carry what the later stages read. -/
theorem carried1 (c : Dev nD) : Carried m c (W1 m ρ c) :=
  Stretch0.carried (W0 m ρ c) rfl rfl rfl rfl rfl rfl rfl rfl rfl

/-- Region 0 writes none of the buffers the later stages read. -/
theorem carried_region0 {c : Dev nD} (h : Carried m c (W1 m ρ c)) : Carried m c (W2 m ρ c) where
  batch := (W2_of_ne m ρ c main_arg2 (by decide)).trans h.batch
  wrel := (W2_of_ne m ρ c main_arg3 (by decide)).trans h.wrel
  brel := (W2_of_ne m ρ c main_arg4 (by decide)).trans h.brel
  wroot := (W2_of_ne m ρ c main_arg5 (by decide)).trans h.wroot
  w1 := (W2_of_ne m ρ c main_arg6 (by decide)).trans h.w1
  b1 := (W2_of_ne m ρ c main_arg7 (by decide)).trans h.b1
  w2 := (W2_of_ne m ρ c main_arg8 (by decide)).trans h.w2
  b2 := (W2_of_ne m ρ c main_arg9 (by decide)).trans h.b2
  src := (W2_of_ne m ρ c main_v1 (by decide)).trans h.src
  dst := (W2_of_ne m ρ c main_v3 (by decide)).trans h.dst

/-- Region 1 writes none of the buffers the later stages read. -/
theorem carried_region1 {c : Dev nD} (h : Carried m c (W3 m ρ c)) : Carried m c (W4 m ρ c) where
  batch := (W4_of_ne m ρ c main_arg2 (by decide)).trans h.batch
  wrel := (W4_of_ne m ρ c main_arg3 (by decide)).trans h.wrel
  brel := (W4_of_ne m ρ c main_arg4 (by decide)).trans h.brel
  wroot := (W4_of_ne m ρ c main_arg5 (by decide)).trans h.wroot
  w1 := (W4_of_ne m ρ c main_arg6 (by decide)).trans h.w1
  b1 := (W4_of_ne m ρ c main_arg7 (by decide)).trans h.b1
  w2 := (W4_of_ne m ρ c main_arg8 (by decide)).trans h.w2
  b2 := (W4_of_ne m ρ c main_arg9 (by decide)).trans h.b2
  src := (W4_of_ne m ρ c main_v1 (by decide)).trans h.src
  dst := (W4_of_ne m ρ c main_v3 (by decide)).trans h.dst

/-- Region 2 writes none of the buffers the later stages read. -/
theorem carried_region2 {c : Dev nD} (h : Carried m c (W5 m ρ c)) : Carried m c (W6 m ρ c) where
  batch := (W6_of_ne m ρ c main_arg2 (by decide)).trans h.batch
  wrel := (W6_of_ne m ρ c main_arg3 (by decide)).trans h.wrel
  brel := (W6_of_ne m ρ c main_arg4 (by decide)).trans h.brel
  wroot := (W6_of_ne m ρ c main_arg5 (by decide)).trans h.wroot
  w1 := (W6_of_ne m ρ c main_arg6 (by decide)).trans h.w1
  b1 := (W6_of_ne m ρ c main_arg7 (by decide)).trans h.b1
  w2 := (W6_of_ne m ρ c main_arg8 (by decide)).trans h.w2
  b2 := (W6_of_ne m ρ c main_arg9 (by decide)).trans h.b2
  src := (W6_of_ne m ρ c main_v1 (by decide)).trans h.src
  dst := (W6_of_ne m ρ c main_v3 (by decide)).trans h.dst

/-- Region 3 writes none of the buffers the later stages read. -/
theorem carried_region3 {c : Dev nD} (h : Carried m c (W7 m ρ c)) : Carried m c (W8 m ρ c) where
  batch := (W8_of_ne m ρ c main_arg2 (by decide)).trans h.batch
  wrel := (W8_of_ne m ρ c main_arg3 (by decide)).trans h.wrel
  brel := (W8_of_ne m ρ c main_arg4 (by decide)).trans h.brel
  wroot := (W8_of_ne m ρ c main_arg5 (by decide)).trans h.wroot
  w1 := (W8_of_ne m ρ c main_arg6 (by decide)).trans h.w1
  b1 := (W8_of_ne m ρ c main_arg7 (by decide)).trans h.b1
  w2 := (W8_of_ne m ρ c main_arg8 (by decide)).trans h.w2
  b2 := (W8_of_ne m ρ c main_arg9 (by decide)).trans h.b2
  src := (W8_of_ne m ρ c main_v1 (by decide)).trans h.src
  dst := (W8_of_ne m ρ c main_v3 (by decide)).trans h.dst

/-- After layer 0's region its output buffer holds layer 0 of the input features. -/
theorem out0 (c : Dev nD) :
    W2 m ρ c (Proc.devRef .tc main_v21)
      = Cert.Net.layer 0 (by decide) (by decide) (m ((c : Thread nD τ).loc main_arg0)) (m ((c : Thread nD τ).loc main_arg1))
          (m ((c : Thread nD τ).loc main_arg3)) (m ((c : Thread nD τ).loc main_arg4)) (m ((c : Thread nD τ).loc main_arg5)) := by
  have ha : V1 m ρ c main_v13 = Cert.Net.agg (m ((c : Thread nD τ).loc main_arg0)) (m ((c : Thread nD τ).loc main_arg1)) :=
    Stretch0.agg (W0 m ρ c)
  have hx : V1 m ρ c main_arg0 = m ((c : Thread nD τ).loc main_arg0) := Stretch0.own (W0 m ρ c)
  have hwl : V1 m ρ c main_v18 = Cert.Net.slab 0 (by decide) (m ((c : Thread nD τ).loc main_arg3)) := Stretch0.wrelSlab (W0 m ρ c)
  have hwr : V1 m ρ c main_v20 = Cert.Net.slab 0 (by decide) (m ((c : Thread nD τ).loc main_arg5)) := Stretch0.wrootSlab (W0 m ρ c)
  have hb : V1 m ρ c main_v16 = shapeCast (⟨2, ![1, 64]⟩ : Shape) (Cert.Net.biasOf 0 (by decide) (m ((c : Thread nD τ).loc main_arg4))) (by decide) :=
    Stretch0.biasRow (W0 m ρ c)
  refine (W2_arr m ρ c 5).trans ((Cert.KernelIdeal.Regions.arr0 (V1 m ρ) c).trans ?_)
  rw [ha, hx, hwl, hwr, hb]
  exact Cert.Net.layerBlk_cast _ _ _ _ _ _

/-- After layer 1's region its output buffer holds layer 1 of the previous layer's output. -/
theorem out1 {c : Dev nD} (hC : Carried m c (W2 m ρ c)) (h : FVec Ideal Cert.Net.SNode .f32)
    (hprev : W2 m ρ c (Proc.devRef .tc main_v21) = h) :
    W4 m ρ c (Proc.devRef .tc main_v39)
      = Cert.Net.layer 1 (by decide) (by decide) h (m ((c : Thread nD τ).loc main_arg1)) (m ((c : Thread nD τ).loc main_arg3))
          (m ((c : Thread nD τ).loc main_arg4)) (m ((c : Thread nD τ).loc main_arg5)) := by
  have ha : V3 m ρ c main_v31 = Cert.Net.agg h (m ((c : Thread nD τ).loc main_arg1)) := by
    show StableHlo.after hostOps1 (W2 m ρ c) (Proc.devRef .tc main_v31) = _
    rw [Stretch1.agg, hprev, hC.src, hC.dst, agg_eq]
  have hx : V3 m ρ c main_v21 = h := by
    show StableHlo.after hostOps1 (W2 m ρ c) (Proc.devRef .tc main_v21) = _
    rw [Stretch1.own, hprev]
  have hwl : V3 m ρ c main_v36 = Cert.Net.slab 1 (by decide) (m ((c : Thread nD τ).loc main_arg3)) := by
    show StableHlo.after hostOps1 (W2 m ρ c) (Proc.devRef .tc main_v36) = _
    rw [Stretch1.wrelSlab, hC.wrel]
  have hwr : V3 m ρ c main_v38 = Cert.Net.slab 1 (by decide) (m ((c : Thread nD τ).loc main_arg5)) := by
    show StableHlo.after hostOps1 (W2 m ρ c) (Proc.devRef .tc main_v38) = _
    rw [Stretch1.wrootSlab, hC.wroot]
  have hb : V3 m ρ c main_v34 = shapeCast (⟨2, ![1, 64]⟩ : Shape) (Cert.Net.biasOf 1 (by decide) (m ((c : Thread nD τ).loc main_arg4))) (by decide) := by
    show StableHlo.after hostOps1 (W2 m ρ c) (Proc.devRef .tc main_v34) = _
    rw [Stretch1.biasRow, hC.brel]
  refine (W4_arr m ρ c 5).trans ((Cert.KernelIdeal.Regions.arr1 (V3 m ρ) c).trans ?_)
  rw [ha, hx, hwl, hwr, hb]
  exact Cert.Net.layerBlk_cast _ _ _ _ _ _

/-- After layer 2's region its output buffer holds layer 2 of the previous layer's output. -/
theorem out2 {c : Dev nD} (hC : Carried m c (W4 m ρ c)) (h : FVec Ideal Cert.Net.SNode .f32)
    (hprev : W4 m ρ c (Proc.devRef .tc main_v39) = h) :
    W6 m ρ c (Proc.devRef .tc main_v57)
      = Cert.Net.layer 2 (by decide) (by decide) h (m ((c : Thread nD τ).loc main_arg1)) (m ((c : Thread nD τ).loc main_arg3))
          (m ((c : Thread nD τ).loc main_arg4)) (m ((c : Thread nD τ).loc main_arg5)) := by
  have ha : V5 m ρ c main_v49 = Cert.Net.agg h (m ((c : Thread nD τ).loc main_arg1)) := by
    show StableHlo.after hostOps2 (W4 m ρ c) (Proc.devRef .tc main_v49) = _
    rw [Stretch2.agg, hprev, hC.src, hC.dst, agg_eq]
  have hx : V5 m ρ c main_v39 = h := by
    show StableHlo.after hostOps2 (W4 m ρ c) (Proc.devRef .tc main_v39) = _
    rw [Stretch2.own, hprev]
  have hwl : V5 m ρ c main_v54 = Cert.Net.slab 2 (by decide) (m ((c : Thread nD τ).loc main_arg3)) := by
    show StableHlo.after hostOps2 (W4 m ρ c) (Proc.devRef .tc main_v54) = _
    rw [Stretch2.wrelSlab, hC.wrel]
  have hwr : V5 m ρ c main_v56 = Cert.Net.slab 2 (by decide) (m ((c : Thread nD τ).loc main_arg5)) := by
    show StableHlo.after hostOps2 (W4 m ρ c) (Proc.devRef .tc main_v56) = _
    rw [Stretch2.wrootSlab, hC.wroot]
  have hb : V5 m ρ c main_v52 = shapeCast (⟨2, ![1, 64]⟩ : Shape) (Cert.Net.biasOf 2 (by decide) (m ((c : Thread nD τ).loc main_arg4))) (by decide) := by
    show StableHlo.after hostOps2 (W4 m ρ c) (Proc.devRef .tc main_v52) = _
    rw [Stretch2.biasRow, hC.brel]
  refine (W6_arr m ρ c 5).trans ((Cert.KernelIdeal.Regions.arr2 (V5 m ρ) c).trans ?_)
  rw [ha, hx, hwl, hwr, hb]
  exact Cert.Net.layerBlk_cast _ _ _ _ _ _

/-- After layer 3's region its output buffer holds layer 3 of the previous layer's output. -/
theorem out3 {c : Dev nD} (hC : Carried m c (W6 m ρ c)) (h : FVec Ideal Cert.Net.SNode .f32)
    (hprev : W6 m ρ c (Proc.devRef .tc main_v57) = h) :
    W8 m ρ c (Proc.devRef .tc main_v75)
      = Cert.Net.layer 3 (by decide) (by decide) h (m ((c : Thread nD τ).loc main_arg1)) (m ((c : Thread nD τ).loc main_arg3))
          (m ((c : Thread nD τ).loc main_arg4)) (m ((c : Thread nD τ).loc main_arg5)) := by
  have ha : V7 m ρ c main_v67 = Cert.Net.agg h (m ((c : Thread nD τ).loc main_arg1)) := by
    show StableHlo.after hostOps3 (W6 m ρ c) (Proc.devRef .tc main_v67) = _
    rw [Stretch3.agg, hprev, hC.src, hC.dst, agg_eq]
  have hx : V7 m ρ c main_v57 = h := by
    show StableHlo.after hostOps3 (W6 m ρ c) (Proc.devRef .tc main_v57) = _
    rw [Stretch3.own, hprev]
  have hwl : V7 m ρ c main_v72 = Cert.Net.slab 3 (by decide) (m ((c : Thread nD τ).loc main_arg3)) := by
    show StableHlo.after hostOps3 (W6 m ρ c) (Proc.devRef .tc main_v72) = _
    rw [Stretch3.wrelSlab, hC.wrel]
  have hwr : V7 m ρ c main_v74 = Cert.Net.slab 3 (by decide) (m ((c : Thread nD τ).loc main_arg5)) := by
    show StableHlo.after hostOps3 (W6 m ρ c) (Proc.devRef .tc main_v74) = _
    rw [Stretch3.wrootSlab, hC.wroot]
  have hb : V7 m ρ c main_v70 = shapeCast (⟨2, ![1, 64]⟩ : Shape) (Cert.Net.biasOf 3 (by decide) (m ((c : Thread nD τ).loc main_arg4))) (by decide) := by
    show StableHlo.after hostOps3 (W6 m ρ c) (Proc.devRef .tc main_v70) = _
    rw [Stretch3.biasRow, hC.brel]
  refine (W8_arr m ρ c 5).trans ((Cert.KernelIdeal.Regions.arr3 (V7 m ρ) c).trans ?_)
  rw [ha, hx, hwl, hwr, hb]
  exact Cert.Net.layerBlk_cast _ _ _ _ _ _

/-- The node features after the four layers, in the last layer's output buffer. -/
theorem features (c : Dev nD) :
    W8 m ρ c (Proc.devRef .tc main_v75)
      = Cert.Net.layers (m ((c : Thread nD τ).loc main_arg0)) (m ((c : Thread nD τ).loc main_arg1)) (m ((c : Thread nD τ).loc main_arg3))
          (m ((c : Thread nD τ).loc main_arg4)) (m ((c : Thread nD τ).loc main_arg5)) := by
  have C1 := carried1 m ρ c
  have C2 := carried_region0 m ρ C1
  have C3 : Carried m c (W3 m ρ c) := Stretch1.carried (W2 m ρ c) C2
  have C4 := carried_region1 m ρ C3
  have C5 : Carried m c (W5 m ρ c) := Stretch2.carried (W4 m ρ c) C4
  have C6 := carried_region2 m ρ C5
  exact out3 m ρ C6 _ (out2 m ρ C4 _ (out1 m ρ C2 _ (out0 m ρ c)))

/-- What the last stretch and the classifier's region read is still what the launch memory gives. -/
theorem carried8 (c : Dev nD) : Carried m c (W8 m ρ c) := by
  have C1 := carried1 m ρ c
  have C2 := carried_region0 m ρ C1
  have C3 : Carried m c (W3 m ρ c) := Stretch1.carried (W2 m ρ c) C2
  have C4 := carried_region1 m ρ C3
  have C5 : Carried m c (W5 m ρ c) := Stretch2.carried (W4 m ρ c) C4
  have C6 := carried_region2 m ρ C5
  have C7 : Carried m c (W7 m ρ c) := Stretch3.carried (W6 m ρ c) C6
  exact carried_region3 m ρ C7

/-- THE RESULT BUFFER at the last boundary is the network function of the launch memory's argument arrays. -/
theorem result (c : Dev nD) :
    W10 m ρ c (Proc.devRef .tc main_v81)
      = Cert.Net.net (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) := by
  have C8 := carried8 m ρ c
  have hg : V9 m ρ c main_v78 = Cert.Net.pool (Cert.Net.layers (m ((c : Thread nD τ).loc main_arg0)) (m ((c : Thread nD τ).loc main_arg1))
      (m ((c : Thread nD τ).loc main_arg3)) (m ((c : Thread nD τ).loc main_arg4)) (m ((c : Thread nD τ).loc main_arg5)))
      (m ((c : Thread nD τ).loc main_arg2)) := by
    show StableHlo.after hostOps4 (W8 m ρ c) (Proc.devRef .tc main_v78) = _
    rw [Stretch4.pooled, features m ρ c, C8.batch]
  have hw1 : V9 m ρ c main_arg6 = m ((c : Thread nD τ).loc main_arg6) := by
    show StableHlo.after hostOps4 (W8 m ρ c) (Proc.devRef .tc main_arg6) = _
    rw [Stretch4.w1, C8.w1]
  have hb1 : V9 m ρ c main_v79 = shapeCast (s := Cert.Net.SBias) (⟨2, ![1, 64]⟩ : Shape) (m ((c : Thread nD τ).loc main_arg7)) (by decide) := by
    show StableHlo.after hostOps4 (W8 m ρ c) (Proc.devRef .tc main_v79) = _
    rw [Stretch4.bias1Row, C8.b1]
  have hw2 : V9 m ρ c main_arg8 = m ((c : Thread nD τ).loc main_arg8) := by
    show StableHlo.after hostOps4 (W8 m ρ c) (Proc.devRef .tc main_arg8) = _
    rw [Stretch4.w2, C8.w2]
  have hb2 : V9 m ρ c main_v80 = shapeCast (s := (⟨1, ![16]⟩ : Shape)) (⟨2, ![1, 16]⟩ : Shape) (m ((c : Thread nD τ).loc main_arg9)) (by decide) := by
    show StableHlo.after hostOps4 (W8 m ρ c) (Proc.devRef .tc main_v80) = _
    rw [Stretch4.bias2Row, C8.b2]
  refine (W10_arr m ρ c 5).trans ((Cert.KernelIdeal.Regions.arr4 (V9 m ρ) c).trans ?_)
  rw [hg, hw1, hb1, hw2, hb2]
  exact Cert.Net.headBlk_cast _ _ _ _ _ _ _

end Cert.KernelIdeal.NetValue

end
-- ==== Proof.LibHostGraphConv.lean ====
/-
  A graph-convolution layer and a two-layer classifier as a host program spells them, on the extended reals, for any
  extents.

  The layer  max((a · wl + b) + x · wr, 0)  — two general products, the bias vector broadcast in two steps and added to
  the FIRST product before the second product is added, the maximum with a broadcast zero constant — is the layer
  max((a · wl + x · wr) + b, 0) that adds the bias last: addition on the extended reals is commutative and associative, and
  no entry needs to be finite.

  The classifier  max(x · w1 + b1, 0) · w2 + b2  — a product, a bias broadcast in two steps, the maximum with a broadcast
  zero constant, a second product and a second bias — is dense (rect (dense x w1 b1)) w2 b2.

  Pass the printed dot records with their well-formedness facts and rfl.
-/
import proofs.«162606_j46273977647663_1_alg».proof.Proof.LibSageLayer

noncomputable section

namespace Cert.HostGraphConv

open Idealize.ShloMosaic Idealize.ShloMosaic.ValueIdx Cert.LibMatmulPlain Cert.Layers

/-- One layer with the bias added to the first product before the second product is added:
    max((a · wl + b) + x · wr, 0). Addition on the extended reals is commutative and associative, so this is the
    layer, which adds the bias last. -/
theorem hostLayerBiasFirst_eq {n k h : Nat} (d : DotDims ⟨2, ![n, k]⟩ ⟨2, ![k, h]⟩ ⟨2, ![n, h]⟩)
    (wf : DotDims.WF ⟨2, ![n, k]⟩ ⟨2, ![k, h]⟩ ⟨2, ![n, h]⟩ [1] [0] [0] [1] [] []) (hd : d = plainDims n k h wf)
    (a x : FVec Ideal ⟨2, ![n, k]⟩ .f32) (wl wr : FVec Ideal ⟨2, ![k, h]⟩ .f32) (b : FVec Ideal ⟨1, ![h]⟩ .f32)
    (h1 : (⟨1, ![h]⟩ : Shape).BroadcastsInDim ⟨2, ![1, h]⟩ ![1])
    (h2 : (⟨2, ![1, h]⟩ : Shape).BroadcastsInDim ⟨2, ![n, h]⟩ ![0, 1])
    (h0 : (⟨0, ![]⟩ : Shape).BroadcastsInDim ⟨2, ![n, h]⟩ ![]) :
    maximumf
        (addf
          (addf (Host.dotGeneral d none a wl)
            (broadcastInDim ⟨2, ![n, h]⟩ ![0, 1] h2 (broadcastInDim ⟨2, ![1, h]⟩ ![1] h1 b)))
          (Host.dotGeneral d none x wr))
        (broadcastInDim ⟨2, ![n, h]⟩ ![] h0 (constant (F := Ideal) ⟨0, ![]⟩ .f32 0x00000000#32))
      = Cert.Sage.layer a x wl wr b := by
  rw [hostRect_eq _ h0, hostBias_eq b h1 h2, hostMm_eq d wf hd a wl, hostMm_eq d wf hd x wr]
  funext i
  unfold Cert.Sage.layer rect
  show max ((mm a wl i + bias n b i) + mm x wr i) _ = max ((mm a wl i + mm x wr i) + bias n b i) _
  rw [add_right_comm]

/-- The classifier as the host spells it: a product, a bias broadcast in two steps, the maximum with a broadcast
    zero constant, a second product and a second bias. -/
theorem hostHead_eq {g k h o : Nat}
    (d1 : DotDims ⟨2, ![g, k]⟩ ⟨2, ![k, h]⟩ ⟨2, ![g, h]⟩)
    (wf1 : DotDims.WF ⟨2, ![g, k]⟩ ⟨2, ![k, h]⟩ ⟨2, ![g, h]⟩ [1] [0] [0] [1] [] []) (hd1 : d1 = plainDims g k h wf1)
    (d2 : DotDims ⟨2, ![g, h]⟩ ⟨2, ![h, o]⟩ ⟨2, ![g, o]⟩)
    (wf2 : DotDims.WF ⟨2, ![g, h]⟩ ⟨2, ![h, o]⟩ ⟨2, ![g, o]⟩ [1] [0] [0] [1] [] []) (hd2 : d2 = plainDims g h o wf2)
    (x : FVec Ideal ⟨2, ![g, k]⟩ .f32) (w1 : FVec Ideal ⟨2, ![k, h]⟩ .f32) (b1 : FVec Ideal ⟨1, ![h]⟩ .f32)
    (w2 : FVec Ideal ⟨2, ![h, o]⟩ .f32) (b2 : FVec Ideal ⟨1, ![o]⟩ .f32)
    (h11 : (⟨1, ![h]⟩ : Shape).BroadcastsInDim ⟨2, ![1, h]⟩ ![1])
    (h12 : (⟨2, ![1, h]⟩ : Shape).BroadcastsInDim ⟨2, ![g, h]⟩ ![0, 1])
    (h0 : (⟨0, ![]⟩ : Shape).BroadcastsInDim ⟨2, ![g, h]⟩ ![])
    (h21 : (⟨1, ![o]⟩ : Shape).BroadcastsInDim ⟨2, ![1, o]⟩ ![1])
    (h22 : (⟨2, ![1, o]⟩ : Shape).BroadcastsInDim ⟨2, ![g, o]⟩ ![0, 1]) :
    addf
        (Host.dotGeneral d2 none
          (maximumf
            (addf (Host.dotGeneral d1 none x w1)
              (broadcastInDim ⟨2, ![g, h]⟩ ![0, 1] h12 (broadcastInDim ⟨2, ![1, h]⟩ ![1] h11 b1)))
            (broadcastInDim ⟨2, ![g, h]⟩ ![] h0 (constant (F := Ideal) ⟨0, ![]⟩ .f32 0x00000000#32)))
          w2)
        (broadcastInDim ⟨2, ![g, o]⟩ ![0, 1] h22 (broadcastInDim ⟨2, ![1, o]⟩ ![1] h21 b2))
      = dense (rect (dense x w1 b1)) w2 b2 := by
  rw [hostRect_eq _ h0, hostBias_eq b1 h11 h12, hostBias_eq b2 h21 h22, hostMm_eq d1 wf1 hd1 x w1, hostMm_eq d2 wf2 hd2]
  rfl

end Cert.HostGraphConv

end
-- ==== Proof.RefNet.lean ====
/-
  The reference program's result as one function of its arguments.

  The reference runs 131 host operations: four graph-convolution layers, a pooling scatter and a two-layer
  classifier. Per layer it computes  max((agg(h) · Wrel_l + brel_l) + h · Wroot_l, 0): the bias is added to the first
  product, and the second product is added after. The network function adds the bias last. The two orders agree
  because addition on the extended reals is commutative and associative; no entry needs to be finite. Everything
  else is the same operations spelt twice, and nothing here reads the gather or a scatter at an index.
-/
import proofs.«162606_j46273977647663_1_alg».proof.Proof.Gen.ReferenceIdeal.Read
import proofs.«162606_j46273977647663_1_alg».proof.Proof.Net
import proofs.«162606_j46273977647663_1_alg».proof.Proof.LibHostGraphConv

noncomputable section

namespace Cert.RefNet

open Idealize.ShloMosaic Idealize.ShloMosaic.TcCoe Idealize.SL.Sem Cert.ReferenceIdeal Cert.ReferenceIdeal.Read
open Cert.LibMatmulPlain Cert.Layers Cert.HostGraphConv

/-! ## The reference, stage by stage

  Each stage's definitions are opened one step each down to the arguments (the previous layer's result stays folded),
  the dense part is read by the two host spellings' lemmas, and what is left is an equation between the same sparse operations
  spelt twice: the gather, the scatters and the slab cuts differ only in the names of their dimension records and of
  the proofs they carry. -/

/-- The first layer of the reference is layer 0 of the network on the input features. -/
theorem layer0_eq (x0 : FVec Ideal Cert.Net.SNode .f32) (x1 : IVec Cert.Net.SEdges 32) (x3 : FVec Ideal Cert.Net.SStack .f32)
    (x4 : FVec Ideal Cert.Net.SBiasStack .f32) (x5 : FVec Ideal Cert.Net.SStack .f32) :
    val_main_v26 (F := Ideal) x0 x1 x3 x4 x5
      = Cert.Net.layer 0 (by decide) (by decide) x0 x1 x3 x4 x5 := by
  unfold val_main_v26 val_main_call0_v0 val_main_call0_cst val_main_v25 val_main_v24 val_main_v23 val_main_v22 val_main_v21 val_main_v20 val_main_v19 val_main_v18 val_main_v17 val_main_v16 val_main_v15 val_main_v14 val_main_v13 val_main_v10 val_main_v9 val_main_v8 val_main_v7 val_main_v6 val_main_c_0 val_main_v5 val_main_v4 val_main_c val_main_v1 val_main_v0 val_main_v12 val_main_v3 val_main_v2 val_main_v11 val_main_cst
  refine (hostLayerBiasFirst_eq _ Cert.ReferenceIdeal.Gen.dot_S100000x64_S64x64_S100000x64_1_0_0_1_n_n_wf rfl _ _ _ _ _ _ _ _).trans ?_
  rfl

/-- Layer 1 of the reference is layer 1 of the network on the previous layer's result, which stays folded. -/
theorem layer1_eq (x0 : FVec Ideal Cert.Net.SNode .f32) (x1 : IVec Cert.Net.SEdges 32) (x3 : FVec Ideal Cert.Net.SStack .f32)
    (x4 : FVec Ideal Cert.Net.SBiasStack .f32) (x5 : FVec Ideal Cert.Net.SStack .f32) :
    val_main_v49 (F := Ideal) x0 x1 x3 x4 x5
      = Cert.Net.layer 1 (by decide) (by decide) (val_main_v26 (F := Ideal) x0 x1 x3 x4 x5) x1 x3 x4 x5 := by
  unfold val_main_v49 val_main_call1_v0 val_main_call1_cst val_main_v48 val_main_v47 val_main_v46 val_main_v45 val_main_v44 val_main_v43 val_main_v42 val_main_v41 val_main_v40 val_main_v39 val_main_v38 val_main_v37 val_main_v36 val_main_v33 val_main_v32 val_main_v31 val_main_v30 val_main_v29 val_main_c_2 val_main_v28 val_main_v27 val_main_c_1 val_main_v1 val_main_v0 val_main_v35 val_main_v3 val_main_v2 val_main_v34 val_main_cst_3
  refine (hostLayerBiasFirst_eq _ Cert.ReferenceIdeal.Gen.dot_S100000x64_S64x64_S100000x64_1_0_0_1_n_n_wf rfl _ _ _ _ _ _ _ _).trans ?_
  rfl

/-- Layer 2 of the reference is layer 2 of the network on the previous layer's result, which stays folded. -/
theorem layer2_eq (x0 : FVec Ideal Cert.Net.SNode .f32) (x1 : IVec Cert.Net.SEdges 32) (x3 : FVec Ideal Cert.Net.SStack .f32)
    (x4 : FVec Ideal Cert.Net.SBiasStack .f32) (x5 : FVec Ideal Cert.Net.SStack .f32) :
    val_main_v72 (F := Ideal) x0 x1 x3 x4 x5
      = Cert.Net.layer 2 (by decide) (by decide) (val_main_v49 (F := Ideal) x0 x1 x3 x4 x5) x1 x3 x4 x5 := by
  unfold val_main_v72 val_main_call2_v0 val_main_call2_cst val_main_v71 val_main_v70 val_main_v69 val_main_v68 val_main_v67 val_main_v66 val_main_v65 val_main_v64 val_main_v63 val_main_v62 val_main_v61 val_main_v60 val_main_v59 val_main_v56 val_main_v55 val_main_v54 val_main_v53 val_main_v52 val_main_c_5 val_main_v51 val_main_v50 val_main_c_4 val_main_v1 val_main_v0 val_main_v58 val_main_v3 val_main_v2 val_main_v57 val_main_cst_6
  refine (hostLayerBiasFirst_eq _ Cert.ReferenceIdeal.Gen.dot_S100000x64_S64x64_S100000x64_1_0_0_1_n_n_wf rfl _ _ _ _ _ _ _ _).trans ?_
  rfl

/-- Layer 3 of the reference is layer 3 of the network on the previous layer's result, which stays folded. -/
theorem layer3_eq (x0 : FVec Ideal Cert.Net.SNode .f32) (x1 : IVec Cert.Net.SEdges 32) (x3 : FVec Ideal Cert.Net.SStack .f32)
    (x4 : FVec Ideal Cert.Net.SBiasStack .f32) (x5 : FVec Ideal Cert.Net.SStack .f32) :
    val_main_v95 (F := Ideal) x0 x1 x3 x4 x5
      = Cert.Net.layer 3 (by decide) (by decide) (val_main_v72 (F := Ideal) x0 x1 x3 x4 x5) x1 x3 x4 x5 := by
  unfold val_main_v95 val_main_call3_v0 val_main_call3_cst val_main_v94 val_main_v93 val_main_v92 val_main_v91 val_main_v90 val_main_v89 val_main_v88 val_main_v87 val_main_v86 val_main_v85 val_main_v84 val_main_v83 val_main_v82 val_main_v79 val_main_v78 val_main_v77 val_main_v76 val_main_v75 val_main_c_8 val_main_v74 val_main_v73 val_main_c_7 val_main_v1 val_main_v0 val_main_v81 val_main_v3 val_main_v2 val_main_v80 val_main_cst_9
  refine (hostLayerBiasFirst_eq _ Cert.ReferenceIdeal.Gen.dot_S100000x64_S64x64_S100000x64_1_0_0_1_n_n_wf rfl _ _ _ _ _ _ _ _).trans ?_
  rfl

/-- The reference's pooling is the add-scatter of the last layer's rows along the graph index. -/
theorem pool_eq (x0 : FVec Ideal Cert.Net.SNode .f32) (x1 : IVec Cert.Net.SEdges 32) (x2 : IVec Cert.Net.SBatch 32)
    (x3 : FVec Ideal Cert.Net.SStack .f32) (x4 : FVec Ideal Cert.Net.SBiasStack .f32) (x5 : FVec Ideal Cert.Net.SStack .f32) :
    val_main_v98 (F := Ideal) x0 x1 x2 x3 x4 x5
      = Cert.Net.pool (val_main_v95 (F := Ideal) x0 x1 x3 x4 x5) x2 := by
  unfold val_main_v98 val_main_v97 val_main_v96 val_main_cst_10
  rfl

/-- The reference's last nine operations are the classifier on the pooled matrix. -/
theorem head_eq (x0 : FVec Ideal Cert.Net.SNode .f32) (x1 : IVec Cert.Net.SEdges 32) (x2 : IVec Cert.Net.SBatch 32)
    (x3 : FVec Ideal Cert.Net.SStack .f32) (x4 : FVec Ideal Cert.Net.SBiasStack .f32) (x5 : FVec Ideal Cert.Net.SStack .f32)
    (x6 : FVec Ideal Cert.Net.SW .f32) (x7 : FVec Ideal Cert.Net.SBias .f32) (x8 : FVec Ideal ⟨2, ![64, 16]⟩ .f32)
    (x9 : FVec Ideal ⟨1, ![16]⟩ .f32) :
    val_main_v107 (F := Ideal) x0 x1 x2 x3 x4 x5 x6 x7 x8 x9
      = Cert.Net.head (g := 1024) (k := 64) (h := 64) (o := 16) (val_main_v98 (F := Ideal) x0 x1 x2 x3 x4 x5) x6 x7 x8 x9 := by
  unfold val_main_v107 val_main_v106 val_main_v105 val_main_v104 val_main_v103 val_main_call4_v0 val_main_call4_cst val_main_v102 val_main_v101 val_main_v100 val_main_v99
  exact hostHead_eq _ Cert.ReferenceIdeal.Gen.dot_S1024x64_S64x64_S1024x64_1_0_0_1_n_n_wf rfl
    _ Cert.ReferenceIdeal.Gen.dot_S1024x64_S64x16_S1024x16_1_0_0_1_n_n_wf rfl _ _ _ _ _ _ _ _ _ _

/-! ## The whole reference -/

/-- The reference program's result is the network function of its ten arguments. -/
theorem res_eq (m : (ℓ : Loc nD τ sig) → Buf (Elt Ideal) ℓ) (c : Dev nD) :
    Cert.ReferenceIdeal.Value.res_main_v107 (F := Ideal) m c
      = Cert.Net.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [Cert.ReferenceIdeal.Read.val_main_v107_eq]
  unfold Cert.Net.net Cert.Net.layers
  rw [head_eq, pool_eq, layer3_eq, layer2_eq, layer1_eq, layer0_eq]

end Cert.RefNet

end
-- ==== Proof.lean ====
/-
  A four-layer graph convolution network with sum pooling and a two-layer classifier: the kernel program (five kernel
  regions — one per layer and one for the classifier — among stretches of host operations that gather and scatter along
  the edge list) against the plain reference.

  On the extended reals both programs compute one function of the ten argument arrays, Cert.Net.net: per layer
  max(agg(h) · Wrel + h · Wroot + brel, 0), the sum of the node rows per graph, then max(g · W1 + b1, 0) · W2 + b2. The
  kernel's regions round their matrix operands to a narrower float format first (the identity on the extended reals) and
  compute the layer block by block; the reference adds the bias before the second product where the kernel adds it
  after, which is the same sum (addition on the extended reals is commutative and associative; no entry needs to be
  finite, so the precondition is never opened). The gather and the scatters are the same operations in both programs
  and are never read at an index.

  The three frames: the two kernel programs' are the generated frame certificates; the reference's is its generated
  run with the result dropped. The ideal pass rewrote nothing, so the idealization claim is trivial.
-/
import proofs.«162606_j46273977647663_1_alg».proof.Defs
import proofs.«162606_j46273977647663_1_alg».proof.Proof.Gen.Kernel
import proofs.«162606_j46273977647663_1_alg».proof.Proof.Gen.Kernel.Frame
import proofs.«162606_j46273977647663_1_alg».proof.Proof.Gen.KernelIdeal
import proofs.«162606_j46273977647663_1_alg».proof.Proof.Gen.KernelIdeal.Frame
import proofs.«162606_j46273977647663_1_alg».proof.Proof.Gen.ReferenceIdeal
import proofs.«162606_j46273977647663_1_alg».proof.Proof.Gen.ReferenceIdeal.Run
import proofs.«162606_j46273977647663_1_alg».proof.Proof.Gen.Pre_finite_inputs
import proofs.«162606_j46273977647663_1_alg».proof.Proof.KernelRun
import proofs.«162606_j46273977647663_1_alg».proof.Proof.KernelNet
import proofs.«162606_j46273977647663_1_alg».proof.Proof.RefNet
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the network function of the argument arrays in their result buffers: the kernel's by its
    run read back through its segments, the reference's by its run's composed term, from memories that agree on the
    arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Net.net
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.NetValue.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.RefNet.res_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
